-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x12 : Shape := ⟨2, ![131072, 12]⟩
abbrev S12x256 : Shape := ⟨2, ![12, 256]⟩
abbrev S256 : Shape := ⟨1, ![256]⟩
abbrev S9x256x256 : Shape := ⟨3, ![9, 256, 256]⟩
abbrev S9x256 : Shape := ⟨2, ![9, 256]⟩
abbrev S256x3 : Shape := ⟨2, ![256, 3]⟩
abbrev S3 : Shape := ⟨1, ![3]⟩
abbrev S_ : Shape := ⟨0, ![]⟩

class Facts : Prop where
  bcast_S_S131072x12 : S_.BroadcastsInDim S131072x12 (![] : Fin 0 → Fin S131072x12.rank)
  reducesTo_S131072x12_S_d0_1 : S131072x12.ReducesTo [0, 1] S_
  h_S_ : 0 < S_.numel
  bcast_S_S12x256 : S_.BroadcastsInDim S12x256 (![] : Fin 0 → Fin S12x256.rank)
  reducesTo_S12x256_S_d0_1 : S12x256.ReducesTo [0, 1] S_
  bcast_S_S256 : S_.BroadcastsInDim S256 (![] : Fin 0 → Fin S256.rank)
  reducesTo_S256_S_d0 : S256.ReducesTo [0] S_
  bcast_S_S9x256x256 : S_.BroadcastsInDim S9x256x256 (![] : Fin 0 → Fin S9x256x256.rank)
  reducesTo_S9x256x256_S_d0_1_2 : S9x256x256.ReducesTo [0, 1, 2] S_
  bcast_S_S9x256 : S_.BroadcastsInDim S9x256 (![] : Fin 0 → Fin S9x256.rank)
  reducesTo_S9x256_S_d0_1 : S9x256.ReducesTo [0, 1] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S9x256 .f32) (main_arg5 : FVec F S256x3 .f32) (main_arg6 : FVec F S3 .f32) (main_v13 : IVec S_ 1) (main_v16 : IVec S9x256x256 1) : IVec S_ 1 :=
  let main_c_5 : IVec S_ 1 := constantI S_ 1 1#1
  let main_v17 : IVec S_ 1 := (fun x v => Host.reduce IntOp.andi x v reducesTo_S9x256x256_S_d0_1_2 h_S_) main_v16 main_c_5
  let main_v18 : IVec S_ 1 := andi main_v13 main_v17
  let main_v19 : FVec F S9x256 .f32 := Host.absf main_arg4
  let main_cst_6 : FVec F S_ .f32 := constant S_ .f32 0x7F800000#32
  let main_v20 : FVec F S9x256 .f32 := broadcastInDim S9x256 ![] bcast_S_S9x256 main_cst_6
  let main_v21 : IVec S9x256 1 := cmpf .olt main_v19 main_v20
  let main_c_7 : IVec S_ 1 := constantI S_ 1 1#1
  let main_v22 : IVec S_ 1 := (fun x v => Host.reduce IntOp.andi x v reducesTo_S9x256_S_d0_1 h_S_) main_v21 main_c_7
  let main_v23 : IVec S_ 1 := andi main_v18 main_v22
  let main_v24 : FVec F S256x3 .f32 := Host.absf main_arg5
  let main_cst_8 : FVec F S_ .f32 := constant S_ .f32 0x7F800000#32
  let main_v25 : FVec F S256x3 .f32 := broadcastInDim S256x3 ![] bcast_S_S256x3 main_cst_8
  let main_v26 : IVec S256x3 1 := cmpf .olt main_v24 main_v25
  let main_c_9 : IVec S_ 1 := constantI S_ 1 1#1
  let main_v27 : IVec S_ 1 := (fun x v => Host.reduce IntOp.andi x v reducesTo_S256x3_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S131072x12 .f32) (main_arg1 : FVec F S12x256 .f32) (main_arg2 : FVec F S256 .f32) (main_arg3 : FVec F S9x256x256 .f32) (main_arg4 : FVec F S9x256 .f32) (main_arg5 : FVec F S256x3 .f32) (main_arg6 : FVec F S3 .f32) : IVec S_ 1 :=
  let main_v0 : FVec F S131072x12 .f32 := Host.absf main_arg0
  let main_cst : FVec F S_ .f32 := constant S_ .f32 0x7F800000#32
  let main_v1 : FVec F S131072x12 .f32 := broadcastInDim S131072x12 ![] bcast_S_S131072x12 main_cst
  let main_v2 : IVec S131072x12 1 := cmpf .olt main_v0 main_v1
  let main_c : IVec S_ 1 := constantI S_ 1 1#1
  let main_v3 : IVec S_ 1 := (fun x v => Host.reduce IntOp.andi x v reducesTo_S131072x12_S_d0_1 h_S_) main_v2 main_c
  let main_v4 : FVec F S12x256 .f32 := Host.absf main_arg1
  let main_cst_0 : FVec F S_ .f32 := constant S_ .f32 0x7F800000#32
  let main_v5 : FVec F S12x256 .f32 := broadcastInDim S12x256 ![] bcast_S_S12x256 main_cst_0
  let main_v6 : IVec S12x256 1 := cmpf .olt main_v4 main_v5
  let main_c_1 : IVec S_ 1 := constantI S_ 1 1#1
  let main_v7 : IVec S_ 1 := (fun x v => Host.reduce IntOp.andi x v reducesTo_S12x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S9x256x256 .f32 := Host.absf main_arg3
  let main_cst_4 : FVec F S_ .f32 := constant S_ .f32 0x7F800000#32
  let main_v15 : FVec F S9x256x256 .f32 := broadcastInDim S9x256x256 ![] bcast_S_S9x256x256 main_cst_4
  let main_v16 : IVec S9x256x256 1 := cmpf .olt main_v14 main_v15
  fn_part1 (F := F) main_arg4 main_arg5 main_arg6 main_v13 main_v16
-- ==== Kernel.lean ====
abbrev S131072x12 : Shape := ⟨2, ![131072, 12]⟩
abbrev S12x256 : Shape := ⟨2, ![12, 256]⟩
abbrev S256 : Shape := ⟨1, ![256]⟩
abbrev S9x256x256 : Shape := ⟨3, ![9, 256, 256]⟩
abbrev S9x256 : Shape := ⟨2, ![9, 256]⟩
abbrev S256x3 : Shape := ⟨2, ![256, 3]⟩
abbrev S3 : Shape := ⟨1, ![3]⟩
abbrev S1x256 : Shape := ⟨2, ![1, 256]⟩
abbrev S9x1x256 : Shape := ⟨3, ![9, 1, 256]⟩
abbrev S1x3 : Shape := ⟨2, ![1, 3]⟩
abbrev S131072x3 : Shape := ⟨2, ![131072, 3]⟩
abbrev S4096x12 : Shape := ⟨2, ![4096, 12]⟩
abbrev S4096x3 : Shape := ⟨2, ![4096, 3]⟩
abbrev S4096x256 : Shape := ⟨2, ![4096, 256]⟩
abbrev S1x256x256 : Shape := ⟨3, ![1, 256, 256]⟩
abbrev S256x256 : Shape := ⟨2, ![256, 256]⟩
abbrev S1x1x256 : Shape := ⟨3, ![1, 1, 256]⟩

abbrev nBuf : Space → Nat
  | .hbm => 14
  | .vmem => 10
  | .smem => 0
  | _ => 0

abbrev bufTy : (tb : Table) → Fin (tcTables nBuf tb) → BufTy
  | .hbm, ⟨0, _⟩ => ⟨S131072x12, .f32⟩
  | .hbm, ⟨1, _⟩ => ⟨S12x256, .f32⟩
  | .hbm, ⟨2, _⟩ => ⟨S256, .f32⟩
  | .hbm, ⟨3, _⟩ => ⟨S9x256x256, .f32⟩
  | .hbm, ⟨4, _⟩ => ⟨S9x256, .f32⟩
  | .hbm, ⟨5, _⟩ => ⟨S256x3, .f32⟩
  | .hbm, ⟨6, _⟩ => ⟨S3, .f32⟩
  | .hbm, ⟨7, _⟩ => ⟨S12x256, .bf16⟩
  | .hbm, ⟨8, _⟩ => ⟨S9x256x256, .bf16⟩
  | .hbm, ⟨9, _⟩ => ⟨S256x3, .bf16⟩
  | .hbm, ⟨10, _⟩ => ⟨S1x256, .f32⟩
  | .hbm, ⟨11, _⟩ => ⟨S9x1x256, .f32⟩
  | .hbm, ⟨12, _⟩ => ⟨S1x3, .f32⟩
  | .hbm, ⟨13, _⟩ => ⟨S131072x3, .f32⟩
  | .local _ .vmem, ⟨0, _⟩ => ⟨S4096x12, .f32⟩
  | .local _ .vmem, ⟨1, _⟩ => ⟨S4096x12, .f32⟩
  | .local _ .vmem, ⟨2, _⟩ => ⟨S12x256, .bf16⟩
  | .local _ .vmem, ⟨3, _⟩ => ⟨S1x256, .f32⟩
  | .local _ .vmem, ⟨4, _⟩ => ⟨S9x256x256, .bf16⟩
  | .local _ .vmem, ⟨5, _⟩ => ⟨S9x1x256, .f32⟩
  | .local _ .vmem, ⟨6, _⟩ => ⟨S256x3, .bf16⟩
  | .local _ .vmem, ⟨7, _⟩ => ⟨S1x3, .f32⟩
  | .local _ .vmem, ⟨8, _⟩ => ⟨S4096x3, .f32⟩
  | .local _ .vmem, ⟨9, _⟩ => ⟨S4096x3, .f32⟩
  | _, _ => ⟨S131072x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x3 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S256_S1x256 : S256.ShapeCasts S1x256
  shapeCasts_S9x256_S9x1x256 : S9x256.ShapeCasts S9x1x256
  shapeCasts_S3_S1x3 : S3.ShapeCasts S1x3
  inb_S4096x12_S4096x12_0_0 : ∀ a, (![0, 0] : Fin 2 → Nat) a + S4096x12.size a ≤ S4096x12.size a
  h_S4096x12 : 0 < S4096x12.numel
  inb_S12x256_S12x256_0_0 : ∀ a, (![0, 0] : Fin 2 → Nat) a + S12x256.size a ≤ S12x256.size a
  h_S12x256 : 0 < S12x256.numel
  shapeCasts_S12x256_S12x256 : S12x256.ShapeCasts S12x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S9x256x256_S1x256x256_0_0_0 : ∀ a, (![0, 0, 0] : Fin 3 → Nat) a + S1x256x256.size a ≤ S9x256x256.size a
  h_S1x256x256 : 0 < S1x256x256.numel
  shapeCasts_S1x256x256_S256x256 : S1x256x256.ShapeCasts S256x256
  inb_S9x1x256_S1x1x256_0_0_0 : ∀ a, (![0, 0, 0] : Fin 3 → Nat) a + S1x1x256.size a ≤ S9x1x256.size a
  h_S1x1x256 : 0 < S1x1x256.numel
  shapeCasts_S1x1x256_S1x256 : S1x1x256.ShapeCasts S1x256
  inb_S9x256x256_S1x256x256_1_0_0 : ∀ a, (![1, 0, 0] : Fin 3 → Nat) a + S1x256x256.size a ≤ S9x256x256.size a
  inb_S9x1x256_S1x1x256_1_0_0 : ∀ a, (![1, 0, 0] : Fin 3 → Nat) a + S1x1x256.size a ≤ S9x1x256.size a
  inb_S9x256x256_S1x256x256_2_0_0 : ∀ a, (![2, 0, 0] : Fin 3 → Nat) a + S1x256x256.size a ≤ S9x256x256.size a
  inb_S9x1x256_S1x1x256_2_0_0 : ∀ a, (![2, 0, 0] : Fin 3 → Nat) a + S1x1x256.size a ≤ S9x1x256.size a
  inb_S9x256x256_S1x256x256_3_0_0 : ∀ a, (![3, 0, 0] : Fin 3 → Nat) a + S1x256x256.size a ≤ S9x256x256.size a
  inb_S9x1x256_S1x1x256_3_0_0 : ∀ a, (![3, 0, 0] : Fin 3 → Nat) a + S1x1x256.size a ≤ S9x1x256.size a
  inb_S9x256x256_S1x256x256_4_0_0 : ∀ a, (![4, 0, 0] : Fin 3 → Nat) a + S1x256x256.size a ≤ S9x256x256.size a
  inb_S9x1x256_S1x1x256_4_0_0 : ∀ a, (![4, 0, 0] : Fin 3 → Nat) a + S1x1x256.size a ≤ S9x1x256.size a
  inb_S9x256x256_S1x256x256_5_0_0 : ∀ a, (![5, 0, 0] : Fin 3 → Nat) a + S1x256x256.size a ≤ S9x256x256.size a
  inb_S9x1x256_S1x1x256_5_0_0 : ∀ a, (![5, 0, 0] : Fin 3 → Nat) a + S1x1x256.size a ≤ S9x1x256.size a
  inb_S9x256x256_S1x256x256_6_0_0 : ∀ a, (![6, 0, 0] : Fin 3 → Nat) a + S1x256x256.size a ≤ S9x256x256.size a
  inb_S9x1x256_S1x1x256_6_0_0 : ∀ a, (![6, 0, 0] : Fin 3 → Nat) a + S1x1x256.size a ≤ S9x1x256.size a
  inb_S9x256x256_S1x256x256_7_0_0 : ∀ a, (![7, 0, 0] : Fin 3 → Nat) a + S1x256x256.size a ≤ S9x256x256.size a
  inb_S9x1x256_S1x1x256_7_0_0 : ∀ a, (![7, 0, 0] : Fin 3 → Nat) a + S1x1x256.size a ≤ S9x1x256.size a
  inb_S9x256x256_S1x256x256_8_0_0 : ∀ a, (![8, 0, 0] : Fin 3 → Nat) a + S1x256x256.size a ≤ S9x256x256.size a
  inb_S9x1x256_S1x1x256_8_0_0 : ∀ a, (![8, 0, 0] : Fin 3 → Nat) a + S1x1x256.size a ≤ S9x1x256.size a
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4096x3 : S1x3.Broadcasts S4096x3
  inb_S4096x3_S4096x3_0_0 : ∀ a, (![0, 0] : Fin 2 → Nat) a + S4096x3.size a ≤ S4096x3.size a
  h_S4096x3 : 0 < S4096x3.numel
  dot_S4096x12_S12x256_S4096x256_1_0_0_1_n_n_wf : DotDims.WF S4096x12 S12x256 S4096x256 [1] [0] [0] [1] [] []
  dot_S4096x256_S256x256_S4096x256_1_0_0_1_n_n_wf : DotDims.WF S4096x256 S256x256 S4096x256 [1] [0] [0] [1] [] []
  dot_S4096x256_S256x3_S4096x3_1_0_0_1_n_n_wf : DotDims.WF S4096x256 S256x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x12.size a ≤ S131072x12.size a
  hwx0_0 : ∀ i : grid0.Coords, EltTy.bits .f32 = 32 ∨ (Rect.block (s := S131072x12) S4096x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x256.size a ≤ S12x256.size a
  hwx0_1 : ∀ i : grid0.Coords, EltTy.bits .bf16 = 32 ∨ (Rect.block (s := S12x256) S12x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x256x256.size a ≤ S9x256x256.size a
  hwx0_3 : ∀ i : grid0.Coords, EltTy.bits .bf16 = 32 ∨ (Rect.block (s := S9x256x256) S9x256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9x1x256.size a ≤ S9x1x256.size a
  hwx0_4 : ∀ i : grid0.Coords, EltTy.bits .f32 = 32 ∨ (Rect.block (s := S9x1x256) S9x1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x3.size a ≤ S256x3.size a
  hwx0_5 : ∀ i : grid0.Coords, EltTy.bits .bf16 = 32 ∨ (Rect.block (s := S256x3) S256x3.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3.size a ≤ S1x3.size a
  hwx0_6 : ∀ i : grid0.Coords, EltTy.bits .f32 = 32 ∨ (Rect.block (s := S1x3) S1x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x3.size a ≤ S131072x3.size a
  hwx0_7 : ∀ i : grid0.Coords, EltTy.bits .f32 = 32 ∨ (Rect.block (s := S131072x3) S4096x3.size (cc0_transform_7 i) (hinb0_7 i)).WholeWords (EltTy.packing .f32)

variable [Facts₀]

def dot_S4096x12_S12x256_S4096x256_1_0_0_1_n_n : DotDims S4096x12 S12x256 S4096x256 where
  lhsContracting := [1]
  rhsContracting := [0]
  lhsNonContracting := [0]
  rhsNonContracting := [1]
  lhsBatch := []
  rhsBatch := []
  wf := dot_S4096x12_S12x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x3_S4096x3_1_0_0_1_n_n : DotDims S4096x256 S256x3 S4096x3 where
  lhsContracting := [1]
  rhsContracting := [0]
  lhsNonContracting := [0]
  rhsNonContracting := [1]
  lhsBatch := []
  rhsBatch := []
  wf := dot_S4096x256_S256x3_S4096x3_1_0_0_1_n_n_wf

abbrev win0_0 : Pipeline.Window sig grid0 :=
  Pipeline.Window.ofSpec (Memref.whole main_arg0) S4096x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S12x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S9x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S9x1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S4096x3.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x12 : Shape := ⟨2, ![131072, 12]⟩
abbrev S12x256 : Shape := ⟨2, ![12, 256]⟩
abbrev S256 : Shape := ⟨1, ![256]⟩
abbrev S9x256x256 : Shape := ⟨3, ![9, 256, 256]⟩
abbrev S9x256 : Shape := ⟨2, ![9, 256]⟩
abbrev S256x3 : Shape := ⟨2, ![256, 3]⟩
abbrev S3 : Shape := ⟨1, ![3]⟩
abbrev S131072x256 : Shape := ⟨2, ![131072, 256]⟩
abbrev S1x256 : Shape := ⟨2, ![1, 256]⟩
abbrev S1x256x256 : Shape := ⟨3, ![1, 256, 256]⟩
abbrev S256x256 : Shape := ⟨2, ![256, 256]⟩
abbrev S131072x3 : Shape := ⟨2, ![131072, 3]⟩
abbrev S1x3 : Shape := ⟨2, ![1, 3]⟩
abbrev S_ : Shape := ⟨0, ![]⟩

abbrev nBuf : Space → Nat
  | .hbm => 109
  | .vmem => 0
  | .smem => 0
  | _ => 0

abbrev bufTy : (tb : Table) → Fin (tcTables nBuf tb) → BufTy
  | .hbm, ⟨0, _⟩ => ⟨S131072x12, .f32⟩
  | .hbm, ⟨1, _⟩ => ⟨S12x256, .f32⟩
  | .hbm, ⟨2, _⟩ => ⟨S256, .f32⟩
  | .hbm, ⟨3, _⟩ => ⟨S9x256x256, .f32⟩
  | .hbm, ⟨4, _⟩ => ⟨S9x256, .f32⟩
  | .hbm, ⟨5, _⟩ => ⟨S256x3, .f32⟩
  | .hbm, ⟨6, _⟩ => ⟨S3, .f32⟩
  | .hbm, ⟨7, _⟩ => ⟨S131072x256, .f32⟩
  | .hbm, ⟨8, _⟩ => ⟨S1x256, .f32⟩
  | .hbm, ⟨9, _⟩ => ⟨S131072x256, .f32⟩
  | .hbm, ⟨10, _⟩ => ⟨S131072x256, .f32⟩
  | .hbm, ⟨11, _⟩ => ⟨S131072x256, .f32⟩
  | .hbm, ⟨12, _⟩ => ⟨S1x256x256, .f32⟩
  | .hbm, ⟨13, _⟩ => ⟨S256x256, .f32⟩
  | .hbm, ⟨14, _⟩ => ⟨S131072x256, .f32⟩
  | .hbm, ⟨15, _⟩ => ⟨S1x256, .f32⟩
  | .hbm, ⟨16, _⟩ => ⟨S256, .f32⟩
  | .hbm, ⟨17, _⟩ => ⟨S1x256, .f32⟩
  | .hbm, ⟨18, _⟩ => ⟨S131072x256, .f32⟩
  | .hbm, ⟨19, _⟩ => ⟨S131072x256, .f32⟩
  | .hbm, ⟨20, _⟩ => ⟨S131072x256, .f32⟩
  | .hbm, ⟨21, _⟩ => ⟨S1x256x256, .f32⟩
  | .hbm, ⟨22, _⟩ => ⟨S256x256, .f32⟩
  | .hbm, ⟨23, _⟩ => ⟨S131072x256, .f32⟩
  | .hbm, ⟨24, _⟩ => ⟨S1x256, .f32⟩
  | .hbm, ⟨25, _⟩ => ⟨S256, .f32⟩
  | .hbm, ⟨26, _⟩ => ⟨S1x256, .f32⟩
  | .hbm, ⟨27, _⟩ => ⟨S131072x256, .f32⟩
  | .hbm, ⟨28, _⟩ => ⟨S131072x256, .f32⟩
  | .hbm, ⟨29, _⟩ => ⟨S131072x256, .f32⟩
  | .hbm, ⟨30, _⟩ => ⟨S131072x256, .f32⟩
  | .hbm, ⟨31, _⟩ => ⟨S131072x256, .f32⟩
  | .hbm, ⟨32, _⟩ => ⟨S1x256x256, .f32⟩
  | .hbm, ⟨33, _⟩ => ⟨S256x256, .f32⟩
  | .hbm, ⟨34, _⟩ => ⟨S131072x256, .f32⟩
  | .hbm, ⟨35, _⟩ => ⟨S1x256, .f32⟩
  | .hbm, ⟨36, _⟩ => ⟨S256, .f32⟩
  | .hbm, ⟨37, _⟩ => ⟨S1x256, .f32⟩
  | .hbm, ⟨38, _⟩ => ⟨S131072x256, .f32⟩
  | .hbm, ⟨39, _⟩ => ⟨S131072x256, .f32⟩
  | .hbm, ⟨40, _⟩ => ⟨S131072x256, .f32⟩
  | .hbm, ⟨41, _⟩ => ⟨S1x256x256, .f32⟩
  | .hbm, ⟨42, _⟩ => ⟨S256x256, .f32⟩
  | .hbm, ⟨43, _⟩ => ⟨S131072x256, .f32⟩
  | .hbm, ⟨44, _⟩ => ⟨S1x256, .f32⟩
  | .hbm, ⟨45, _⟩ => ⟨S256, .f32⟩
  | .hbm, ⟨46, _⟩ => ⟨S1x256, .f32⟩
  | .hbm, ⟨47, _⟩ => ⟨S131072x256, .f32⟩
  | .hbm, ⟨48, _⟩ => ⟨S131072x256, .f32⟩
  | .hbm, ⟨49, _⟩ => ⟨S131072x256, .f32⟩
  | .hbm, ⟨50, _⟩ => ⟨S1x256x256, .f32⟩
  | .hbm, ⟨51, _⟩ => ⟨S256x256, .f32⟩
  | .hbm, ⟨52, _⟩ => ⟨S131072x256, .f32⟩
  | .hbm, ⟨53, _⟩ => ⟨S1x256, .f32⟩
  | .hbm, ⟨54, _⟩ => ⟨S256, .f32⟩
  | .hbm, ⟨55, _⟩ => ⟨S1x256, .f32⟩
  | .hbm, ⟨56, _⟩ => ⟨S131072x256, .f32⟩
  | .hbm, ⟨57, _⟩ => ⟨S131072x256, .f32⟩
  | .hbm, ⟨58, _⟩ => ⟨S131072x256, .f32⟩
  | .hbm, ⟨59, _⟩ => ⟨S1x256x256, .f32⟩
  | .hbm, ⟨60, _⟩ => ⟨S256x256, .f32⟩
  | .hbm, ⟨61, _⟩ => ⟨S131072x256, .f32⟩
  | .hbm, ⟨62, _⟩ => ⟨S1x256, .f32⟩
  | .hbm, ⟨63, _⟩ => ⟨S256, .f32⟩
  | .hbm, ⟨64, _⟩ => ⟨S1x256, .f32⟩
  | .hbm, ⟨65, _⟩ => ⟨S131072x256, .f32⟩
  | .hbm, ⟨66, _⟩ => ⟨S131072x256, .f32⟩
  | .hbm, ⟨67, _⟩ => ⟨S131072x256, .f32⟩
  | .hbm, ⟨68, _⟩ => ⟨S131072x256, .f32⟩
  | .hbm, ⟨69, _⟩ => ⟨S131072x256, .f32⟩
  | .hbm, ⟨70, _⟩ => ⟨S1x256x256, .f32⟩
  | .hbm, ⟨71, _⟩ => ⟨S256x256, .f32⟩
  | .hbm, ⟨72, _⟩ => ⟨S131072x256, .f32⟩
  | .hbm, ⟨73, _⟩ => ⟨S1x256, .f32⟩
  | .hbm, ⟨74, _⟩ => ⟨S256, .f32⟩
  | .hbm, ⟨75, _⟩ => ⟨S1x256, .f32⟩
  | .hbm, ⟨76, _⟩ => ⟨S131072x256, .f32⟩
  | .hbm, ⟨77, _⟩ => ⟨S131072x256, .f32⟩
  | .hbm, ⟨78, _⟩ => ⟨S131072x256, .f32⟩
  | .hbm, ⟨79, _⟩ => ⟨S1x256x256, .f32⟩
  | .hbm, ⟨80, _⟩ => ⟨S256x256, .f32⟩
  | .hbm, ⟨81, _⟩ => ⟨S131072x256, .f32⟩
  | .hbm, ⟨82, _⟩ => ⟨S1x256, .f32⟩
  | .hbm, ⟨83, _⟩ => ⟨S256, .f32⟩
  | .hbm, ⟨84, _⟩ => ⟨S1x256, .f32⟩
  | .hbm, ⟨85, _⟩ => ⟨S131072x256, .f32⟩
  | .hbm, ⟨86, _⟩ => ⟨S131072x256, .f32⟩
  | .hbm, ⟨87, _⟩ => ⟨S131072x256, .f32⟩
  | .hbm, ⟨88, _⟩ => ⟨S1x256x256, .f32⟩
  | .hbm, ⟨89, _⟩ => ⟨S256x256, .f32⟩
  | .hbm, ⟨90, _⟩ => ⟨S131072x256, .f32⟩
  | .hbm, ⟨91, _⟩ => ⟨S1x256, .f32⟩
  | .hbm, ⟨92, _⟩ => ⟨S256, .f32⟩
  | .hbm, ⟨93, _⟩ => ⟨S1x256, .f32⟩
  | .hbm, ⟨94, _⟩ => ⟨S131072x256, .f32⟩
  | .hbm, ⟨95, _⟩ => ⟨S131072x256, .f32⟩
  | .hbm, ⟨96, _⟩ => ⟨S131072x256, .f32⟩
  | .hbm, ⟨97, _⟩ => ⟨S131072x3, .f32⟩
  | .hbm, ⟨98, _⟩ => ⟨S1x3, .f32⟩
  | .hbm, ⟨99, _⟩ => ⟨S131072x3, .f32⟩
  | .hbm, ⟨100, _⟩ => ⟨S131072x3, .f32⟩
  | .hbm, ⟨101, _⟩ => ⟨S131072x3, .f32⟩
  | .hbm, ⟨102, _⟩ => ⟨S131072x3, .f32⟩
  | .hbm, ⟨103, _⟩ => ⟨S_, .f32⟩
  | .hbm, ⟨104, _⟩ => ⟨S131072x3, .f32⟩
  | .hbm, ⟨105, _⟩ => ⟨S131072x3, .f32⟩
  | .hbm, ⟨106, _⟩ => ⟨S_, .f32⟩
  | .hbm, ⟨107, _⟩ => ⟨S131072x3, .f32⟩
  | .hbm, ⟨108, _⟩ => ⟨S131072x3, .f32⟩
  | _, _ => ⟨S131072x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_cst : Ref sig .tc := ⟨.hbm, 103, rfl⟩
abbrev main_v96 : Ref sig .tc := ⟨.hbm, 104, rfl⟩
abbrev main_v97 : Ref sig .tc := ⟨.hbm, 105, rfl⟩
abbrev main_cst_0 : Ref sig .tc := ⟨.hbm, 106, rfl⟩
abbrev main_v98 : Ref sig .tc := ⟨.hbm, 107, rfl⟩
abbrev main_v99 : Ref sig .tc := ⟨.hbm, 108, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  slices_S9x256x256_S1x256x256_0_0_0 : S9x256x256.Slices ![0, 0, 0] S1x256x256
  shapeCasts_S1x256x256_S256x256 : S1x256x256.ShapeCasts S256x256
  slices_S9x256_S1x256_0_0 : S9x256.Slices ![0, 0] S1x256
  shapeCasts_S1x256_S256 : S1x256.ShapeCasts S256
  slices_S9x256x256_S1x256x256_1_0_0 : S9x256x256.Slices ![1, 0, 0] S1x256x256
  slices_S9x256_S1x256_1_0 : S9x256.Slices ![1, 0] S1x256
  slices_S9x256x256_S1x256x256_2_0_0 : S9x256x256.Slices ![2, 0, 0] S1x256x256
  slices_S9x256_S1x256_2_0 : S9x256.Slices ![2, 0] S1x256
  slices_S9x256x256_S1x256x256_3_0_0 : S9x256x256.Slices ![3, 0, 0] S1x256x256
  slices_S9x256_S1x256_3_0 : S9x256.Slices ![3, 0] S1x256
  slices_S9x256x256_S1x256x256_4_0_0 : S9x256x256.Slices ![4, 0, 0] S1x256x256
  slices_S9x256_S1x256_4_0 : S9x256.Slices ![4, 0] S1x256
  slices_S9x256x256_S1x256x256_5_0_0 : S9x256x256.Slices ![5, 0, 0] S1x256x256
  slices_S9x256_S1x256_5_0 : S9x256.Slices ![5, 0] S1x256
  slices_S9x256x256_S1x256x256_6_0_0 : S9x256x256.Slices ![6, 0, 0] S1x256x256
  slices_S9x256_S1x256_6_0 : S9x256.Slices ![6, 0] S1x256
  slices_S9x256x256_S1x256x256_7_0_0 : S9x256x256.Slices ![7, 0, 0] S1x256x256
  slices_S9x256_S1x256_7_0 : S9x256.Slices ![7, 0] S1x256
  slices_S9x256x256_S1x256x256_8_0_0 : S9x256x256.Slices ![8, 0, 0] S1x256x256
  slices_S9x256_S1x256_8_0 : S9x256.Slices ![8, 0] S1x256
  bcast_S3_S1x3_1 : S3.BroadcastsInDim S1x3 (![1] : Fin 1 → Fin S1x3.rank)
  bcast_S1x3_S131072x3_0_1 : S1x3.BroadcastsInDim S131072x3 (![0, 1] : Fin 2 → Fin S131072x3.rank)
  bcast_S_S131072x3 : S_.BroadcastsInDim S131072x3 (![] : Fin 0 → Fin S131072x3.rank)
  dot_S131072x12_S12x256_S131072x256_1_0_0_1_n_n_wf : DotDims.WF S131072x12 S12x256 S131072x256 [1] [0] [0] [1] [] []
  dot_S131072x256_S256x256_S131072x256_1_0_0_1_n_n_wf : DotDims.WF S131072x256 S256x256 S131072x256 [1] [0] [0] [1] [] []
  dot_S131072x256_S256x3_S131072x3_1_0_0_1_n_n_wf : DotDims.WF S131072x256 S256x3 S131072x3 [1] [0] [0] [1] [] []

variable [Facts₀]

def dot_S131072x12_S12x256_S131072x256_1_0_0_1_n_n : DotDims S131072x12 S12x256 S131072x256 where
  lhsContracting := [1]
  rhsContracting := [0]
  lhsNonContracting := [0]
  rhsNonContracting := [1]
  lhsBatch := []
  rhsBatch := []
  wf := dot_S131072x12_S12x256_S131072x256_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x256_S256x3_S131072x3_1_0_0_1_n_n : DotDims S131072x256 S256x3 S131072x3 where
  lhsContracting := [1]
  rhsContracting := [0]
  lhsNonContracting := [0]
  rhsNonContracting := [1]
  lhsBatch := []
  rhsBatch := []
  wf := dot_S131072x256_S256x3_S131072x3_1_0_0_1_n_n_wf

class Facts : Prop extends Facts₀ where

variable [Facts]
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«166873_j14568529068326_1_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.Spec.lean ====
/-
  THE TOWER, ONE ROW AT A TIME.

  A dense tower sends a row x of 12 numbers through ten hidden layers of width 256 and one output layer of width 3.
  A layer takes a row h, forms for every output column q the number  Σ_k h_k · W_{k,q} + b_q , and applies one
  function to it. The hidden layers' functions repeat with period four: sine, cosine, the gaussian z ↦ exp(−z·z),
  hyperbolic tangent; the output layer applies the logistic function. Over the extended reals every one of these is
  a total function, so the tower is one function of the row and of the parameters — no row of the input ever
  meets another row. `G` is that function applied to each row of an array of 131072 rows.
-/
import Idealize.ShloMosaic.PureOps.Ideal
import Idealize.ShloMosaic.Lib.ValueIdx

noncomputable section

open scoped BigOperators

namespace Cert.Tower

open Idealize.ShloMosaic Idealize.ShloMosaic.ValueIdx

/-- A vector, a matrix and a stack of matrices read by coordinates. -/
abbrev rd1 {a : Nat} (A : (⟨1, ![a]⟩ : Shape).Idx → EReal) : Fin a → EReal := fun i => A (ix1 i)
abbrev rd2 {a b : Nat} (A : (⟨2, ![a, b]⟩ : Shape).Idx → EReal) : Fin a → Fin b → EReal := fun i j => A (ix2 i j)
abbrev rd3 {a b c : Nat} (A : (⟨3, ![a, b, c]⟩ : Shape).Idx → EReal) : Fin a → Fin b → Fin c → EReal :=
  fun i j k => A (ix3 i j k)

/-- Column q of a row h times a matrix W, plus the bias b. -/
def dense {K N : Nat} (h : Fin K → EReal) (W : Fin K → Fin N → EReal) (b : Fin N → EReal) (q : Fin N) : EReal :=
  (∑ k : Fin K, h k * W k q) + b q

/-- One layer: the function f of each column of the dense map. -/
def layer {K N : Nat} (f : EReal → EReal) (h : Fin K → EReal) (W : Fin K → Fin N → EReal) (b : Fin N → EReal) :
    Fin N → EReal := fun q => f (dense h W b q)

/-- The gaussian bump exp(−z·z). -/
def gauss (z : EReal) : EReal := Ideal.exp (-z * z)

section Row

variable (x : Fin 12 → EReal) (W0 : Fin 12 → Fin 256 → EReal) (b0 : Fin 256 → EReal)
  (Ws : Fin 9 → Fin 256 → Fin 256 → EReal) (bs : Fin 9 → Fin 256 → EReal)
  (Wout : Fin 256 → Fin 3 → EReal) (bout : Fin 3 → EReal)

/-- The hidden rows, in order. -/
def h0 : Fin 256 → EReal := layer Ideal.sin x W0 b0
def h1 : Fin 256 → EReal := layer Ideal.cos (h0 x W0 b0) (Ws 0) (bs 0)
def h2 : Fin 256 → EReal := layer gauss (h1 x W0 b0 Ws bs) (Ws 1) (bs 1)
def h3 : Fin 256 → EReal := layer Ideal.tanh (h2 x W0 b0 Ws bs) (Ws 2) (bs 2)
def h4 : Fin 256 → EReal := layer Ideal.sin (h3 x W0 b0 Ws bs) (Ws 3) (bs 3)
def h5 : Fin 256 → EReal := layer Ideal.cos (h4 x W0 b0 Ws bs) (Ws 4) (bs 4)
def h6 : Fin 256 → EReal := layer gauss (h5 x W0 b0 Ws bs) (Ws 5) (bs 5)
def h7 : Fin 256 → EReal := layer Ideal.tanh (h6 x W0 b0 Ws bs) (Ws 6) (bs 6)
def h8 : Fin 256 → EReal := layer Ideal.sin (h7 x W0 b0 Ws bs) (Ws 7) (bs 7)
def h9 : Fin 256 → EReal := layer Ideal.cos (h8 x W0 b0 Ws bs) (Ws 8) (bs 8)

/-- The tower's three outputs for the row x. -/
def out : Fin 3 → EReal := layer Ideal.logistic (h9 x W0 b0 Ws bs) Wout bout

end Row

/-- The tower applied to every row of the input array: entry (r, c) of the result is output c of the tower at row r,
    the parameters read off their arrays by coordinates. -/
def G (X : (⟨2, ![131072, 12]⟩ : Shape).Idx → EReal) (W0 : (⟨2, ![12, 256]⟩ : Shape).Idx → EReal)
    (b0 : (⟨1, ![256]⟩ : Shape).Idx → EReal) (Ws : (⟨3, ![9, 256, 256]⟩ : Shape).Idx → EReal)
    (bs : (⟨2, ![9, 256]⟩ : Shape).Idx → EReal) (Wout : (⟨2, ![256, 3]⟩ : Shape).Idx → EReal)
    (bout : (⟨1, ![3]⟩ : Shape).Idx → EReal) : (⟨2, ![131072, 3]⟩ : Shape).Idx → EReal := fun i =>
  out (rd2 X (⟨(i 0).val, (i 0).isLt⟩ : Fin 131072)) (rd2 W0) (rd1 b0) (rd3 Ws) (rd2 bs) (rd2 Wout) (rd1 bout)
    (⟨(i 1).val, (i 1).isLt⟩ : Fin 3)

/-- `G` at the entry with coordinates (r, c). -/
theorem G_at (X : (⟨2, ![131072, 12]⟩ : Shape).Idx → EReal) (W0 : (⟨2, ![12, 256]⟩ : Shape).Idx → EReal)
    (b0 : (⟨1, ![256]⟩ : Shape).Idx → EReal) (Ws : (⟨3, ![9, 256, 256]⟩ : Shape).Idx → EReal)
    (bs : (⟨2, ![9, 256]⟩ : Shape).Idx → EReal) (Wout : (⟨2, ![256, 3]⟩ : Shape).Idx → EReal)
    (bout : (⟨1, ![3]⟩ : Shape).Idx → EReal) (r : Fin 131072) (c : Fin 3) :
    G X W0 b0 Ws bs Wout bout (ix2 r c)
      = out (rd2 X r) (rd2 W0) (rd1 b0) (rd3 Ws) (rd2 bs) (rd2 Wout) (rd1 bout) c := rfl

end Cert.Tower

end
-- ==== Proof.Layers.lean ====
/-
  ONE DENSE LAYER READ AT AN ENTRY, IN A KERNEL'S SPELLING AND IN A HOST PROGRAM'S.

  Over the extended reals a matrix product [M, K] × [K, N] — a kernel's product into a zero accumulator, or a host
  program's dot — has at (r, q) the value Σ_k left(r, k) · right(k, q), and adding a bias row repeated down the M rows
  adds that row's entry q. So if row r of the left operand is a row h r, the right operand is a matrix W and the
  bias row is b, then the dense map's entry (r, q) is `dense (h r) W b q`, whichever program spells it and
  whatever the number of rows M: a block of 4096 rows and the whole array of 131072 rows read the same way.
  Rounding the left operand to a narrower float format on the way into the product changes nothing here, a change
  of format being the identity on extended reals.

  The four activations act entry by entry in both spellings. The gaussian is exp((0 − z)·z) in one program and
  exp((−z)·z) in the other: the same number, since 0 − z = −z for every extended real z. The logistic is one
  operation in one program and 1 / (1 + exp(−z)) in the other: the same number by the very definition of the
  logistic on the extended reals (with its values 0 at −∞ and 1 at +∞ coming from those of exp and of division).
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«166873_j14568529068326_1_alg».proof.Proof.LibRowReads
import proofs.«166873_j14568529068326_1_alg».proof.Proof.Spec

noncomputable section

open scoped BigOperators

namespace Cert.Tower

open Idealize.ShloMosaic Idealize.ShloMosaic.ValueIdx

/-- A product record that contracts the left operand's columns against the right operand's rows, with no batch axis. -/
structure Plain {M K N : Nat} (d : DotDims ⟨2, ![M, K]⟩ ⟨2, ![K, N]⟩ ⟨2, ![M, N]⟩) : Prop where
  hl : d.lhsContracting = [1]
  hr : d.rhsContracting = [0]
  hln : d.lhsNonContracting = [0]
  hrn : d.rhsNonContracting = [1]
  hlb : d.lhsBatch = []
  hrb : d.rhsBatch = []

/-! ## The dense map -/

section Dense

variable {M K N : Nat} (d : DotDims ⟨2, ![M, K]⟩ ⟨2, ![K, N]⟩ ⟨2, ![M, N]⟩) (hd : Plain d)
  (h : Fin M → Fin K → EReal) (W : Fin K → Fin N → EReal) (b : Fin N → EReal)

include hd

/-- A kernel's product of a rounded left operand into zero, at (r, q), when the left operand's rows are `h` and the
    right operand is `W`. -/
theorem kernel_matmul_at {φ : FTy} (H : FVec Ideal ⟨2, ![M, K]⟩ .f32) (hlt : FTy.bf16.bits < FTy.f32.bits)
    (Wm : FVec Ideal ⟨2, ![K, N]⟩ φ) (eH : ∀ r k, H (ix2 r k) = h r k) (eW : ∀ k q, Wm (ix2 k q) = W k q)
    (r : Fin M) (q : Fin N) :
    matmul d none (truncf .bf16 H hlt) Wm (constant (F := Ideal) ⟨2, ![M, N]⟩ .f32 0x00000000#32) (ix2 r q)
      = ∑ k : Fin K, h r k * W k q := by
  rw [Cert.Lib.matmul_zero_at d hd.hl hd.hr hd.hln hd.hrn hd.hlb hd.hrb]
  exact Finset.sum_congr rfl fun k _ => by rw [truncf_apply, eH, eW]

/-- The kernel's dense map at (r, q). -/
theorem kernel_dense_at {φ : FTy} (H : FVec Ideal ⟨2, ![M, K]⟩ .f32) (hlt : FTy.bf16.bits < FTy.f32.bits)
    (Wm : FVec Ideal ⟨2, ![K, N]⟩ φ) (Bm : FVec Ideal ⟨2, ![M, N]⟩ .f32) (eH : ∀ r k, H (ix2 r k) = h r k)
    (eW : ∀ k q, Wm (ix2 k q) = W k q) (eB : ∀ r q, Bm (ix2 r q) = b q) (r : Fin M) (q : Fin N) :
    addf (matmul d none (truncf .bf16 H hlt) Wm (constant (F := Ideal) ⟨2, ![M, N]⟩ .f32 0x00000000#32)) Bm (ix2 r q)
      = dense (h r) W b q := by
  rw [addf_apply, kernel_matmul_at d hd h W H hlt Wm eH eW, eB]
  rfl

/-- A kernel's layer at (r, q): an entrywise function `Fv` (acting as `f`) of the dense map. -/
theorem kernel_layer_at {φ : FTy} (f : EReal → EReal)
    (Fv : FVec Ideal ⟨2, ![M, N]⟩ .f32 → FVec Ideal ⟨2, ![M, N]⟩ .f32) (hF : ∀ Z i, Fv Z i = f (Z i))
    (H : FVec Ideal ⟨2, ![M, K]⟩ .f32) (hlt : FTy.bf16.bits < FTy.f32.bits)
    (Wm : FVec Ideal ⟨2, ![K, N]⟩ φ) (Bm : FVec Ideal ⟨2, ![M, N]⟩ .f32) (eH : ∀ r k, H (ix2 r k) = h r k)
    (eW : ∀ k q, Wm (ix2 k q) = W k q) (eB : ∀ r q, Bm (ix2 r q) = b q) (r : Fin M) (q : Fin N) :
    Fv (addf (matmul d none (truncf .bf16 H hlt) Wm (constant (F := Ideal) ⟨2, ![M, N]⟩ .f32 0x00000000#32)) Bm) (ix2 r q)
      = layer f (h r) W b q := by
  rw [hF, kernel_dense_at d hd h W b H hlt Wm Bm eH eW eB]
  rfl

/-- A host program's dense map at (r, q). -/
theorem host_dense_at (H : FVec Ideal ⟨2, ![M, K]⟩ .f32) (Wm : FVec Ideal ⟨2, ![K, N]⟩ .f32)
    (Bm : FVec Ideal ⟨2, ![M, N]⟩ .f32) (eH : ∀ r k, H (ix2 r k) = h r k) (eW : ∀ k q, Wm (ix2 k q) = W k q)
    (eB : ∀ r q, Bm (ix2 r q) = b q) (r : Fin M) (q : Fin N) :
    addf (Host.dotGeneral d none H Wm) Bm (ix2 r q) = dense (h r) W b q := by
  rw [addf_apply, Cert.Lib.dotGeneral_at d hd.hl hd.hr hd.hln hd.hrn hd.hlb hd.hrb, eB]
  exact congrArg (· + b q) (Finset.sum_congr rfl fun k _ => by rw [eH, eW])

/-- A host program's layer at (r, q). -/
theorem host_layer_at (f : EReal → EReal)
    (Fv : FVec Ideal ⟨2, ![M, N]⟩ .f32 → FVec Ideal ⟨2, ![M, N]⟩ .f32) (hF : ∀ Z i, Fv Z i = f (Z i))
    (H : FVec Ideal ⟨2, ![M, K]⟩ .f32) (Wm : FVec Ideal ⟨2, ![K, N]⟩ .f32)
    (Bm : FVec Ideal ⟨2, ![M, N]⟩ .f32) (eH : ∀ r k, H (ix2 r k) = h r k) (eW : ∀ k q, Wm (ix2 k q) = W k q)
    (eB : ∀ r q, Bm (ix2 r q) = b q) (r : Fin M) (q : Fin N) :
    Fv (addf (Host.dotGeneral d none H Wm) Bm) (ix2 r q) = layer f (h r) W b q := by
  rw [hF, host_dense_at d hd h W b H Wm Bm eH eW eB]
  rfl

end Dense

/-! ## How the two programs spell a weight matrix and a bias row -/

section Spellings

variable {α : Type}

/-- Kernel: a [1, K, N] slab re-laid as [K, N]. -/
theorem slab_weight_at {K N : Nat} (Wv : (⟨3, ![1, K, N]⟩ : Shape).Idx → α)
    (hc : (⟨3, ![1, K, N]⟩ : Shape).ShapeCasts ⟨2, ![K, N]⟩) (W : Fin K → Fin N → α)
    (e : ∀ k q, Wv (ix3 (0 : Fin 1) k q) = W k q) (k : Fin K) (q : Fin N) :
    shapeCast ⟨2, ![K, N]⟩ Wv hc (ix2 k q) = W k q :=
  (shapeCast_1ab_ab_apply Wv hc k q).trans (e k q)

/-- Kernel: a [1, 1, N] slab re-laid as a [1, N] row and repeated down M rows. -/
theorem slab_bias_at {M N : Nat} (bv : (⟨3, ![1, 1, N]⟩ : Shape).Idx → α)
    (hc : (⟨3, ![1, 1, N]⟩ : Shape).ShapeCasts ⟨2, ![1, N]⟩) (hb : (⟨2, ![1, N]⟩ : Shape).Broadcasts ⟨2, ![M, N]⟩)
    (b : Fin N → α) (e : ∀ q, bv (ix3 (0 : Fin 1) (0 : Fin 1) q) = b q) (r : Fin M) (q : Fin N) :
    broadcastTo ⟨2, ![M, N]⟩ (shapeCast ⟨2, ![1, N]⟩ bv hc) hb (ix2 r q) = b q := by
  rw [broadcastTo_1b_ab_apply, shapeCast_1ab_ab_apply]
  exact e q

/-- Kernel: a matrix re-laid in its own shape. -/
theorem whole_weight_at {K N : Nat} (Wv : (⟨2, ![K, N]⟩ : Shape).Idx → α)
    (hc : (⟨2, ![K, N]⟩ : Shape).ShapeCasts ⟨2, ![K, N]⟩) (W : Fin K → Fin N → α)
    (e : ∀ k q, Wv (ix2 k q) = W k q) (k : Fin K) (q : Fin N) :
    shapeCast ⟨2, ![K, N]⟩ Wv hc (ix2 k q) = W k q := by
  rw [shapeCast_self]
  exact e k q

/-- Kernel: a [1, N] row re-laid in its own shape and repeated down M rows. -/
theorem whole_bias_at {M N : Nat} (bv : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (b : Fin N → α) (e : ∀ q, bv (ix2 (0 : Fin 1) q) = b q) (r : Fin M) (q : Fin N) :
    broadcastTo ⟨2, ![M, N]⟩ (shapeCast ⟨2, ![1, N]⟩ bv hc) hb (ix2 r q) = b q := by
  rw [broadcastTo_1b_ab_apply, shapeCast_self]
  exact e q

/-- Host: slab o of a stacked [n, K, N] parameter, sliced out and re-laid as [K, N]. -/
theorem host_slab_weight_at {n K N : Nat} (X : (⟨3, ![n, K, N]⟩ : Shape).Idx → α) (o : Nat) (ho : o < n)
    (hs : (⟨3, ![n, K, N]⟩ : Shape).Slices ![o, 0, 0] ⟨3, ![1, K, N]⟩)
    (hc : (⟨3, ![1, K, N]⟩ : Shape).ShapeCasts ⟨2, ![K, N]⟩) (W : Fin K → Fin N → α)
    (e : ∀ k q, X (ix3 (⟨o, ho⟩ : Fin n) k q) = W k q) (k : Fin K) (q : Fin N) :
    shapeCast ⟨2, ![K, N]⟩ (extractStridedSlice ⟨3, ![1, K, N]⟩ ![o, 0, 0] X hs) hc (ix2 k q) = W k q :=
  (Cert.Lib.slab_mat_apply X o ho hs hc k q).trans (e k q)

/-- Host: row o of a stacked [n, N] parameter, sliced out, re-laid as a vector, made a row and repeated down M rows. -/
theorem host_row_bias_at {n M N : Nat} (X : (⟨2, ![n, N]⟩ : Shape).Idx → α) (o : Nat) (ho : o < n)
    (hs : (⟨2, ![n, N]⟩ : Shape).Slices ![o, 0] ⟨2, ![1, N]⟩) (hc : (⟨2, ![1, N]⟩ : Shape).ShapeCasts ⟨1, ![N]⟩)
    (h1 : (⟨1, ![N]⟩ : Shape).BroadcastsInDim ⟨2, ![1, N]⟩ ![1])
    (h2 : (⟨2, ![1, N]⟩ : Shape).BroadcastsInDim ⟨2, ![M, N]⟩ ![0, 1]) (b : Fin N → α)
    (e : ∀ q, X (ix2 (⟨o, ho⟩ : Fin n) q) = b q) (r : Fin M) (q : Fin N) :
    broadcastInDim ⟨2, ![M, N]⟩ ![0, 1] h2 (broadcastInDim ⟨2, ![1, N]⟩ ![1] h1
      (shapeCast ⟨1, ![N]⟩ (extractStridedSlice ⟨2, ![1, N]⟩ ![o, 0] X hs) hc)) (ix2 r q) = b q := by
  rw [Cert.Lib.bcastInDim_vecRows_apply, Cert.Lib.row_vec_apply X o ho]
  exact e q

/-- Host: a vector made a row and repeated down M rows. -/
theorem host_vec_bias_at {M N : Nat} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (b : Fin N → α)
    (e : ∀ q, v (ix1 q) = b q) (r : Fin M) (q : Fin N) :
    broadcastInDim ⟨2, ![M, N]⟩ ![0, 1] h2 (broadcastInDim ⟨2, ![1, N]⟩ ![1] h1 v) (ix2 r q) = b q := by
  rw [Cert.Lib.bcastInDim_vecRows_apply]
  exact e q

end Spellings

/-! ## The activations, entry by entry -/

section Activations

variable {s : Shape}

theorem kernel_sin_at (Z : FVec Ideal s .f32) (i : s.Idx) : sin Z i = Ideal.sin (Z i) := rfl
theorem kernel_cos_at (Z : FVec Ideal s .f32) (i : s.Idx) : cos Z i = Ideal.cos (Z i) := rfl
theorem kernel_tanh_at (Z : FVec Ideal s .f32) (i : s.Idx) : tanh Z i = Ideal.tanh (Z i) := rfl
theorem kernel_logistic_at (Z : FVec Ideal s .f32) (i : s.Idx) : logistic Z i = Ideal.logistic (Z i) := rfl

/-- The number exp((0 − z)·z), zero spelt by its f32 word, is the gaussian of z. -/
theorem gauss_of_zero_sub (z : EReal) : Ideal.exp ((Ideal.ofBits .f32 0x00000000#32 - z) * z) = gauss z := by
  rw [Ideal.ofBits_zero_f32, zero_sub]
  rfl

/-- The kernel's gaussian: exp((0 − z)·z) with the zero a splat constant. -/
theorem kernel_gauss_at (Z : FVec Ideal s .f32) (i : s.Idx) :
    exp (mulf (subf (broadcast s (Scalar.ofBits (F := Ideal) .f32 0x00000000#32)) Z) Z) i = gauss (Z i) :=
  gauss_of_zero_sub (Z i)

theorem host_sin_at (Z : FVec Ideal s .f32) (i : s.Idx) : Host.sin Z i = Ideal.sin (Z i) := rfl
theorem host_cos_at (Z : FVec Ideal s .f32) (i : s.Idx) : Host.cos Z i = Ideal.cos (Z i) := rfl
theorem host_tanh_at (Z : FVec Ideal s .f32) (i : s.Idx) : Host.tanh Z i = Ideal.tanh (Z i) := rfl

/-- The host's gaussian: exp((−z)·z). -/
theorem host_gauss_at (Z : FVec Ideal s .f32) (i : s.Idx) : Host.exp (mulf (Host.negf Z) Z) i = gauss (Z i) := rfl

/-- The host's logistic, spelt 1 / (1 + exp(−z)) with both ones splat constants. -/
theorem host_logistic_at (h : (⟨0, ![]⟩ : Shape).BroadcastsInDim s ![]) (Z : FVec Ideal s .f32) (i : s.Idx) :
    Host.divf (broadcastInDim s ![] h (constant (F := Ideal) ⟨0, ![]⟩ .f32 0x3F800000#32))
      (addf (broadcastInDim s ![] h (constant (F := Ideal) ⟨0, ![]⟩ .f32 0x3F800000#32)) (Host.exp (Host.negf Z))) i
      = Ideal.logistic (Z i) := by
  rw [hostDivf_apply, addf_apply, Cert.Lib.bcast_const_apply, Ideal.ofBits_one_f32]
  rfl

end Activations

end Cert.Tower

end
-- ==== Proof.KernelTower.lean ====
/-
  THE KERNEL'S BLOCK COMPUTES THE TOWER, ROW BY ROW.

  At one grid point the kernel's body holds a block of 4096 input rows and all the parameters, and stores one block
  of 4096 result rows. Its arithmetic is the same chain of eleven layers — a product into a zero accumulator of the
  previous rows (rounded on the way in, which is the identity on extended reals) with a weight matrix, a bias row
  repeated down the rows, an entrywise function — so its stored block, at (r, c), is output c of the tower at row r
  of the input block. The chain is read from the last layer inwards: each layer's reading asks for the reading of
  the rows that enter it. Nothing is assumed of the loaded vectors beyond what their entries are, so the statement
  serves whatever arrays the blocks are cut from. The gaussian of layer 6 straddles two of the printed terms (one
  ends at the dense map z, the next starts from the pair z, 0 − z): it is joined here.
-/
import proofs.«166873_j14568529068326_1_alg».proof.Proof.Gen.KernelIdeal.Value
import proofs.«166873_j14568529068326_1_alg».proof.Proof.Layers

noncomputable section

namespace Cert.Tower.Kernel

open Idealize.ShloMosaic Idealize.ShloMosaic.ValueIdx Cert.KernelIdeal Cert.KernelIdeal.Gen Cert.Tower

/-- The kernel's three product records are plain products. -/
theorem plain_in : Plain dot_S4096x12_S12x256_S4096x256_1_0_0_1_n_n := ⟨rfl, rfl, rfl, rfl, rfl, rfl⟩
theorem plain_hid : Plain dot_S4096x256_S256x256_S4096x256_1_0_0_1_n_n := ⟨rfl, rfl, rfl, rfl, rfl, rfl⟩
theorem plain_out : Plain dot_S4096x256_S256x3_S4096x3_1_0_0_1_n_n := ⟨rfl, rfl, rfl, rfl, rfl, rfl⟩

variable (x : Fin 4096 → Fin 12 → EReal) (W0 : Fin 12 → Fin 256 → EReal) (b0 : Fin 256 → EReal)
  (Ws : Fin 9 → Fin 256 → Fin 256 → EReal) (bs : Fin 9 → Fin 256 → EReal)
  (Wout : Fin 256 → Fin 3 → EReal) (bout : Fin 3 → EReal)

/-- Layers 0, 1, 2 (sine, cosine, gaussian): the first printed term at (r, k) is hidden row 2. -/
theorem rows_h2 (P0 : Vec Ideal S4096x12 .f32) (P1 : Vec Ideal S12x256 .bf16) (P2 : Vec Ideal S1x256 .f32)
    (P3 : Vec Ideal S1x256x256 .bf16) (P4 : Vec Ideal S1x1x256 .f32) (P5 : Vec Ideal S1x256x256 .bf16)
    (P6 : Vec Ideal S1x1x256 .f32)
    (e0 : ∀ r j, P0 (ix2 r j) = x r j) (e1 : ∀ j q, P1 (ix2 j q) = W0 j q) (e2 : ∀ q, P2 (ix2 (0 : Fin 1) q) = b0 q)
    (e3 : ∀ j q, P3 (ix3 (0 : Fin 1) j q) = Ws 0 j q) (e4 : ∀ q, P4 (ix3 (0 : Fin 1) (0 : Fin 1) q) = bs 0 q)
    (e5 : ∀ j q, P5 (ix3 (0 : Fin 1) j q) = Ws 1 j q) (e6 : ∀ q, P6 (ix3 (0 : Fin 1) (0 : Fin 1) q) = bs 1 q)
    (r : Fin 4096) (k : Fin 256) :
    k0_pay2 P0 P1 P2 P3 P4 P5 P6 (ix2 r k) = h2 (x r) W0 b0 Ws bs k := by
  unfold k0_pay2
  refine kernel_layer_at _ plain_hid (fun r => h1 (x r) W0 b0 Ws bs) (Ws 1) (bs 1) gauss
    (fun Z => exp (mulf (subf (broadcast _ (Scalar.ofBits (F := Ideal) .f32 0x00000000#32)) Z) Z)) kernel_gauss_at
    _ _ _ _ ?_ (slab_weight_at P5 _ (Ws 1) e5) (slab_bias_at P6 _ _ (bs 1) e6) r k
  intro r k
  refine kernel_layer_at _ plain_hid (fun r => h0 (x r) W0 b0) (Ws 0) (bs 0) Ideal.cos cos kernel_cos_at
    _ _ _ _ ?_ (slab_weight_at P3 _ (Ws 0) e3) (slab_bias_at P4 _ _ (bs 0) e4) r k
  intro r k
  exact kernel_layer_at _ plain_in x W0 b0 Ideal.sin sin kernel_sin_at
    _ _ _ _ e0 (whole_weight_at P1 _ W0 e1) (whole_bias_at P2 _ _ b0 e2) r k

/-- Layers 3, 4, 5 (hyperbolic tangent, sine, cosine) and layer 6's dense map: the second printed term at (r, k),
    from rows that are hidden row 2 and a weight matrix that is slab 2. -/
theorem rows_z6 (v30 : FVec Ideal S4096x256 .f32) (v32 : FVec Ideal S256x256 .bf16) (v33 : Vec Ideal S1x1x256 .f32)
    (v40 : Vec Ideal S1x256x256 .bf16) (v42 : Vec Ideal S1x1x256 .f32) (v49 : Vec Ideal S1x256x256 .bf16)
    (v51 : Vec Ideal S1x1x256 .f32) (v58 : Vec Ideal S1x256x256 .bf16) (v60 : Vec Ideal S1x1x256 .f32)
    (e30 : ∀ r k, v30 (ix2 r k) = h2 (x r) W0 b0 Ws bs k) (e32 : ∀ j q, v32 (ix2 j q) = Ws 2 j q)
    (e33 : ∀ q, v33 (ix3 (0 : Fin 1) (0 : Fin 1) q) = bs 2 q)
    (e40 : ∀ j q, v40 (ix3 (0 : Fin 1) j q) = Ws 3 j q) (e42 : ∀ q, v42 (ix3 (0 : Fin 1) (0 : Fin 1) q) = bs 3 q)
    (e49 : ∀ j q, v49 (ix3 (0 : Fin 1) j q) = Ws 4 j q) (e51 : ∀ q, v51 (ix3 (0 : Fin 1) (0 : Fin 1) q) = bs 4 q)
    (e58 : ∀ j q, v58 (ix3 (0 : Fin 1) j q) = Ws 5 j q) (e60 : ∀ q, v60 (ix3 (0 : Fin 1) (0 : Fin 1) q) = bs 5 q)
    (r : Fin 4096) (k : Fin 256) :
    k0_pay4 v30 v32 v33 v40 v42 v49 v51 v58 v60 (ix2 r k) = dense (h5 (x r) W0 b0 Ws bs) (Ws 5) (bs 5) k := by
  unfold k0_pay4
  refine kernel_dense_at _ plain_hid (fun r => h5 (x r) W0 b0 Ws bs) (Ws 5) (bs 5)
    _ _ _ _ ?_ (slab_weight_at v58 _ (Ws 5) e58) (slab_bias_at v60 _ _ (bs 5) e60) r k
  intro r k
  refine kernel_layer_at _ plain_hid (fun r => h4 (x r) W0 b0 Ws bs) (Ws 4) (bs 4) Ideal.cos cos kernel_cos_at
    _ _ _ _ ?_ (slab_weight_at v49 _ (Ws 4) e49) (slab_bias_at v51 _ _ (bs 4) e51) r k
  intro r k
  refine kernel_layer_at _ plain_hid (fun r => h3 (x r) W0 b0 Ws bs) (Ws 3) (bs 3) Ideal.sin sin kernel_sin_at
    _ _ _ _ ?_ (slab_weight_at v40 _ (Ws 3) e40) (slab_bias_at v42 _ _ (bs 3) e42) r k
  intro r k
  exact kernel_layer_at _ plain_hid (fun r => h2 (x r) W0 b0 Ws bs) (Ws 2) (bs 2) Ideal.tanh tanh kernel_tanh_at
    v30 _ v32 _ e30 e32 (slab_bias_at v33 _ _ (bs 2) e33) r k

/-- Layers 7, 8, 9 (hyperbolic tangent, sine, cosine) and the output layer's product: the third printed term at
    (r, c), from a pair of vectors whose exp of the entrywise product is hidden row 6. -/
theorem rows_prod (v65 v67 : FVec Ideal S4096x256 .f32) (v70 : Vec Ideal S1x256x256 .bf16) (v72 : Vec Ideal S1x1x256 .f32)
    (v79 : Vec Ideal S1x256x256 .bf16) (v81 : Vec Ideal S1x1x256 .f32) (v88 : Vec Ideal S1x256x256 .bf16)
    (v90 : Vec Ideal S1x1x256 .f32) (v98 : Vec Ideal S256x3 .bf16)
    (e6 : ∀ r k, Ideal.exp (v67 (ix2 r k) * v65 (ix2 r k)) = h6 (x r) W0 b0 Ws bs k)
    (e70 : ∀ j q, v70 (ix3 (0 : Fin 1) j q) = Ws 6 j q) (e72 : ∀ q, v72 (ix3 (0 : Fin 1) (0 : Fin 1) q) = bs 6 q)
    (e79 : ∀ j q, v79 (ix3 (0 : Fin 1) j q) = Ws 7 j q) (e81 : ∀ q, v81 (ix3 (0 : Fin 1) (0 : Fin 1) q) = bs 7 q)
    (e88 : ∀ j q, v88 (ix3 (0 : Fin 1) j q) = Ws 8 j q) (e90 : ∀ q, v90 (ix3 (0 : Fin 1) (0 : Fin 1) q) = bs 8 q)
    (e98 : ∀ j c, v98 (ix2 j c) = Wout j c) (r : Fin 4096) (c : Fin 3) :
    k0_pay6 v65 v67 v70 v72 v79 v81 v88 v90 v98 (ix2 r c) = ∑ j : Fin 256, h9 (x r) W0 b0 Ws bs j * Wout j c := by
  unfold k0_pay6
  refine kernel_matmul_at _ plain_out (fun r => h9 (x r) W0 b0 Ws bs) Wout _ _ _ ?_ (whole_weight_at v98 _ Wout e98) r c
  intro r k
  refine kernel_layer_at _ plain_hid (fun r => h8 (x r) W0 b0 Ws bs) (Ws 8) (bs 8) Ideal.cos cos kernel_cos_at
    _ _ _ _ ?_ (slab_weight_at v88 _ (Ws 8) e88) (slab_bias_at v90 _ _ (bs 8) e90) r k
  intro r k
  refine kernel_layer_at _ plain_hid (fun r => h7 (x r) W0 b0 Ws bs) (Ws 7) (bs 7) Ideal.sin sin kernel_sin_at
    _ _ _ _ ?_ (slab_weight_at v79 _ (Ws 7) e79) (slab_bias_at v81 _ _ (bs 7) e81) r k
  intro r k
  exact kernel_layer_at _ plain_hid (fun r => h6 (x r) W0 b0 Ws bs) (Ws 6) (bs 6) Ideal.tanh tanh kernel_tanh_at
    (exp (mulf v67 v65)) _ _ _ e6 (slab_weight_at v70 _ (Ws 6) e70) (slab_bias_at v72 _ _ (bs 6) e72) r k

/-- THE STORED BLOCK at (r, c) is output c of the tower at row r: the three printed terms joined, the bias row of
    the output layer added and the logistic applied. -/
theorem block_at
    (P0 : Vec Ideal S4096x12 .f32) (P1 : Vec Ideal S12x256 .bf16) (P2 : Vec Ideal S1x256 .f32) (P3 : Vec Ideal S1x256x256 .bf16)
    (P4 : Vec Ideal S1x1x256 .f32) (P5 : Vec Ideal S1x256x256 .bf16) (P6 : Vec Ideal S1x1x256 .f32) (P7 : Vec Ideal S1x256x256 .bf16)
    (P8 : Vec Ideal S1x1x256 .f32) (P9 : Vec Ideal S1x256x256 .bf16) (P10 : Vec Ideal S1x1x256 .f32) (P11 : Vec Ideal S1x256x256 .bf16)
    (P12 : Vec Ideal S1x1x256 .f32) (P13 : Vec Ideal S1x256x256 .bf16) (P14 : Vec Ideal S1x1x256 .f32) (P15 : Vec Ideal S1x256x256 .bf16)
    (P16 : Vec Ideal S1x1x256 .f32) (P17 : Vec Ideal S1x256x256 .bf16) (P18 : Vec Ideal S1x1x256 .f32) (P19 : Vec Ideal S1x256x256 .bf16)
    (P20 : Vec Ideal S1x1x256 .f32) (P21 : Vec Ideal S256x3 .bf16) (P22 : Vec Ideal S1x3 .f32)
    (e0 : ∀ r j, P0 (ix2 r j) = x r j) (e1 : ∀ j q, P1 (ix2 j q) = W0 j q)
    (e2 : ∀ q, P2 (ix2 (0 : Fin 1) q) = b0 q) (e3 : ∀ j q, P3 (ix3 (0 : Fin 1) j q) = Ws 0 j q)
    (e4 : ∀ q, P4 (ix3 (0 : Fin 1) (0 : Fin 1) q) = bs 0 q) (e5 : ∀ j q, P5 (ix3 (0 : Fin 1) j q) = Ws 1 j q)
    (e6 : ∀ q, P6 (ix3 (0 : Fin 1) (0 : Fin 1) q) = bs 1 q) (e7 : ∀ j q, P7 (ix3 (0 : Fin 1) j q) = Ws 2 j q)
    (e8 : ∀ q, P8 (ix3 (0 : Fin 1) (0 : Fin 1) q) = bs 2 q) (e9 : ∀ j q, P9 (ix3 (0 : Fin 1) j q) = Ws 3 j q)
    (e10 : ∀ q, P10 (ix3 (0 : Fin 1) (0 : Fin 1) q) = bs 3 q) (e11 : ∀ j q, P11 (ix3 (0 : Fin 1) j q) = Ws 4 j q)
    (e12 : ∀ q, P12 (ix3 (0 : Fin 1) (0 : Fin 1) q) = bs 4 q) (e13 : ∀ j q, P13 (ix3 (0 : Fin 1) j q) = Ws 5 j q)
    (e14 : ∀ q, P14 (ix3 (0 : Fin 1) (0 : Fin 1) q) = bs 5 q) (e15 : ∀ j q, P15 (ix3 (0 : Fin 1) j q) = Ws 6 j q)
    (e16 : ∀ q, P16 (ix3 (0 : Fin 1) (0 : Fin 1) q) = bs 6 q) (e17 : ∀ j q, P17 (ix3 (0 : Fin 1) j q) = Ws 7 j q)
    (e18 : ∀ q, P18 (ix3 (0 : Fin 1) (0 : Fin 1) q) = bs 7 q) (e19 : ∀ j q, P19 (ix3 (0 : Fin 1) j q) = Ws 8 j q)
    (e20 : ∀ q, P20 (ix3 (0 : Fin 1) (0 : Fin 1) q) = bs 8 q) (e21 : ∀ j c, P21 (ix2 j c) = Wout j c)
    (e22 : ∀ c, P22 (ix2 (0 : Fin 1) c) = bout c)
    (r : Fin 4096) (c : Fin 3) :
    Cert.KernelIdeal.Value.E7 P0 P1 P2 P3 P4 P5 P6 P7 P8 P9 P10 P11 P12 P13 P14 P15 P16 P17 P18 P19 P20 P21 P22 (ix2 r c)
      = out (x r) W0 b0 Ws bs Wout bout c := by
  have i0 : Cert.KernelIdeal.Value.ix7_0 (ix2 r c) = ix2 r c :=
    funext fun a => by match a with | ⟨0, _⟩ => rfl | ⟨1, _⟩ => rfl
  have i1 : Cert.KernelIdeal.Value.ix7_1 (ix2 r c) = ix2 (0 : Fin 1) c :=
    funext fun a => by match a with | ⟨0, _⟩ => rfl | ⟨1, _⟩ => rfl
  unfold Cert.KernelIdeal.Value.E7
  rw [i0, i1, Ideal.logistic_def, Ideal.addf_def, e22 c]
  refine congrArg Ideal.logistic ?_
  refine congrArg (· + bout c) ?_
  refine rows_prod x W0 b0 Ws bs Wout _ _ P15 P16 P17 P18 P19 P20 P21 ?_ e15 e16 e17 e18 e19 e20 e21 r c
  intro r k
  refine (gauss_of_zero_sub _).trans (congrArg gauss ?_)
  refine rows_z6 x W0 b0 Ws bs _ _ P8 P9 P10 P11 P12 P13 P14 ?_ (slab_weight_at P7 _ (Ws 2) e7) e8 e9 e10 e11 e12 e13 e14 r k
  intro r k
  exact rows_h2 x W0 b0 Ws bs P0 P1 P2 P3 P4 P5 P6 e0 e1 e2 e3 e4 e5 e6 r k

end Cert.Tower.Kernel

end
-- ==== Proof.KernelArray.lean ====
/-
  FROM THE BLOCKS TO THE WHOLE RESULT ARRAY.

  The kernel runs over 32 grid points. Point t holds rows 4096·t … 4096·t + 4095 of the input and writes the same rows
  of the result; every other operand's block is its whole array at every point. Before the region the host program
  prepares six of the operands: the three weight arrays are rounded to a narrower float format (the identity on
  extended reals) and the three bias arrays are re-laid with a unit axis — [256] as [1, 256], [9, 256] as
  [9, 1, 256], [3] as [1, 3] — so each entry of an operand block is an entry of an argument array, and which one is
  plain arithmetic on coordinates. Inside the body each weight slab and bias slab is loaded from its stacked
  block at a constant first coordinate.

  So the loads at point t are, entry by entry, row 4096·t + r of the input and the parameters themselves; the stored
  block is then the tower at those rows (the block's reading, row by row); that is block t of the array `G` of the
  arguments; the 32 blocks cover the result array, row R lying in the block of point R / 4096; hence the result array
  after the run is `G`, and the arguments are as launched.
-/
import proofs.«166873_j14568529068326_1_alg».proof.Proof.KernelTower
import Idealize.ShloMosaic.Lib.StableHlo.Run

noncomputable section

namespace Cert.Tower.Kernel

open Idealize.ShloMosaic Idealize.ShloMosaic.TcCoe Idealize.SL.Sem Idealize.ShloMosaic.ValueIdx
open Cert.KernelIdeal Cert.KernelIdeal.Gen Cert.Tower
open Idealize.ShloMosaic.Pipeline (Dat)

variable (m : (ℓ : Loc nD τ sig) → Buf (Elt Ideal) ℓ) (ρ : Dev nD → PrngReg)

/-- The printed index maps, decided over the 32 points: the input rows move with the result rows, the result's
    column block is 0 and its row block is below 32, and every other operand's block index is 0 on every axis. -/
theorem idx_facts : ∀ t : Fin cfg0.N,
    win0_0.index t (0 : Fin 2) = win0_7.index t (0 : Fin 2) ∧ win0_0.index t (1 : Fin 2) = 0
    ∧ win0_7.index t (1 : Fin 2) = 0 ∧ win0_7.index t (0 : Fin 2) < 32
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every row block of the result is some point's. -/
theorem idx_onto : ∀ q0 : Fin 32, ∃ t : Fin cfg0.N, win0_7.index t = ![q0.val, 0] :=
  (by decide +kernel : ∀ q0 : Fin 32, ∃ t : Fin grid0.N, win0_7.index t = ![q0.val, 0])

/-! ## The operand arrays as the region finds them -/

/-- The first layer's weights, rounded. -/
theorem V_w1 (c : Dev nD) : @Eq (S12x256.Idx → EReal) (V m c main_v0) (truncf (F := Ideal) .bf16 (m ((c : Thread nD τ).loc main_arg1)) bitsLt_bf16_f32) := by
  dsimp only [Gen.V, Gen.hostOps0]; after_results; all_goals rfl

/-- The first layer's bias, re-laid as one row. -/
theorem V_w2 (c : Dev nD) : @Eq (S1x256.Idx → EReal) (V m c main_v3) (shapeCast S1x256 (m ((c : Thread nD τ).loc main_arg2)) shapeCasts_S256_S1x256) := by
  dsimp only [Gen.V, Gen.hostOps0]; after_results; all_goals rfl

/-- The stacked inner weights, rounded. -/
theorem V_w3 (c : Dev nD) : @Eq (S9x256x256.Idx → EReal) (V m c main_v1) (truncf (F := Ideal) .bf16 (m ((c : Thread nD τ).loc main_arg3)) bitsLt_bf16_f32) := by
  dsimp only [Gen.V, Gen.hostOps0]; after_results; all_goals rfl

/-- The stacked inner biases, each re-laid as one row. -/
theorem V_w4 (c : Dev nD) : @Eq (S9x1x256.Idx → EReal) (V m c main_v4) (shapeCast S9x1x256 (m ((c : Thread nD τ).loc main_arg4)) shapeCasts_S9x256_S9x1x256) := by
  dsimp only [Gen.V, Gen.hostOps0]; after_results; all_goals rfl

/-- The output layer's weights, rounded. -/
theorem V_w5 (c : Dev nD) : @Eq (S256x3.Idx → EReal) (V m c main_v2) (truncf (F := Ideal) .bf16 (m ((c : Thread nD τ).loc main_arg5)) bitsLt_bf16_f32) := by
  dsimp only [Gen.V, Gen.hostOps0]; after_results; all_goals rfl

/-- The output layer's bias, re-laid as one row. -/
theorem V_w6 (c : Dev nD) : @Eq (S1x3.Idx → EReal) (V m c main_v5) (shapeCast S1x3 (m ((c : Thread nD τ).loc main_arg6)) shapeCasts_S3_S1x3) := by
  dsimp only [Gen.V, Gen.hostOps0]; after_results; all_goals rfl

/-- An [n, b] array re-laid as [n, 1, b] reads, at (s, 0, q), the operand at (s, q). -/
theorem shapeCast_ab_a1b_apply {α : Type} {n b : Nat} (x : (⟨2, ![n, b]⟩ : Shape).Idx → α)
    (h : (⟨2, ![n, b]⟩ : Shape).ShapeCasts ⟨3, ![n, 1, b]⟩) (s : Fin n) (q : Fin b) :
    shapeCast ⟨3, ![n, 1, b]⟩ x h (ix3 s (0 : Fin 1) q) = x (ix2 s q) :=
  shapeCast_apply x h _ _ (by
    rw [Shape.rowMajor_val_three, Shape.rowMajor_val_two]
    show s.val * b + q.val = (s.val * 1 + 0) * b + q.val
    rw [Nat.mul_one, Nat.add_zero])

/-- The row of the whole array that row p of point t's block is. -/
def rowAt (t : Fin cfg0.N) (p : Fin 4096) : Fin 131072 :=
  ⟨win0_7.index t (0 : Fin 2) * 4096 + p.val, by have := (idx_facts t).2.2.2.1; have := p.isLt; omega⟩

/-! ## Each window's block at a point, entry by entry -/

/-- Row p of the input block at point t is row 4096·t + p of the input. -/
theorem blk_x (c : Dev nD) (t : Fin cfg0.N) (p : Fin 4096) (j : Fin 12) :
    iblk m c 0 t (ix2 p j) = rd2 (m ((c : Thread nD τ).loc main_arg0)) (rowAt t p) j := by
  have he : ((cfg0.win 0).blk t).view.emb (ix2 p j) = ix2 (rowAt t p) j := by
    funext a; apply Fin.ext
    match a with
    | ⟨0, _⟩ => show win0_0.index t (0 : Fin 2) * 4096 + 1 * p.val = win0_7.index t (0 : Fin 2) * 4096 + p.val; rw [(idx_facts t).1]; omega
    | ⟨1, _⟩ => show win0_0.index t (1 : Fin 2) * 12 + 1 * j.val = j.val; rw [(idx_facts t).2.1]; omega
  show V m c main_arg0 (((cfg0.win 0).blk t).view.emb (ix2 p j)) = _
  rw [he, V_main_arg0]

/-- The first layer's weight block is the weight array. -/
theorem blk_W0 (c : Dev nD) (t : Fin cfg0.N) (j : Fin 12) (q : Fin 256) :
    iblk m c 1 t (ix2 j q) = rd2 (m ((c : Thread nD τ).loc main_arg1)) j q := by
  obtain ⟨-, -, -, -, f0, f1, -⟩ := idx_facts t
  have he : ((cfg0.win 1).blk t).view.emb (ix2 j q) = ix2 j q := by
    funext a; apply Fin.ext
    match a with
    | ⟨0, _⟩ => show win0_1.index t (0 : Fin 2) * 12 + 1 * j.val = j.val; rw [f0]; omega
    | ⟨1, _⟩ => show win0_1.index t (1 : Fin 2) * 256 + 1 * q.val = q.val; rw [f1]; omega
  show V m c main_v0 (((cfg0.win 1).blk t).view.emb (ix2 j q)) = _
  rw [he, V_w1]
  rfl

/-- The first layer's bias row is the bias vector. -/
theorem blk_b0 (c : Dev nD) (t : Fin cfg0.N) (q : Fin 256) :
    iblk m c 2 t (ix2 (0 : Fin 1) q) = rd1 (m ((c : Thread nD τ).loc main_arg2)) q := by
  obtain ⟨-, -, -, -, -, -, f0, f1, -⟩ := idx_facts t
  have he : ((cfg0.win 2).blk t).view.emb (ix2 (0 : Fin 1) q) = ix2 (0 : Fin 1) q := by
    funext a; apply Fin.ext
    match a with
    | ⟨0, _⟩ => show win0_2.index t (0 : Fin 2) * 1 + 1 * 0 = 0; rw [f0]
    | ⟨1, _⟩ => show win0_2.index t (1 : Fin 2) * 256 + 1 * q.val = q.val; rw [f1]; omega
  show V m c main_v3 (((cfg0.win 2).blk t).view.emb (ix2 (0 : Fin 1) q)) = _
  rw [he, V_w2, shapeCast_a_1a_apply]

/-- The stacked weight block is the stacked weight array. -/
theorem blk_Ws (c : Dev nD) (t : Fin cfg0.N) (s : Fin 9) (j q : Fin 256) :
    iblk m c 3 t (ix3 s j q) = rd3 (m ((c : Thread nD τ).loc main_arg3)) s j q := by
  obtain ⟨-, -, -, -, -, -, -, -, f0, f1, f2, -⟩ := idx_facts t
  have he : ((cfg0.win 3).blk t).view.emb (ix3 s j q) = ix3 s j q := by
    funext a; apply Fin.ext
    match a with
    | ⟨0, _⟩ => show win0_3.index t (0 : Fin 3) * 9 + 1 * s.val = s.val; rw [f0]; omega
    | ⟨1, _⟩ => show win0_3.index t (1 : Fin 3) * 256 + 1 * j.val = j.val; rw [f1]; omega
    | ⟨2, _⟩ => show win0_3.index t (2 : Fin 3) * 256 + 1 * q.val = q.val; rw [f2]; omega
  show V m c main_v1 (((cfg0.win 3).blk t).view.emb (ix3 s j q)) = _
  rw [he, V_w3]
  rfl

/-- Row s of the stacked bias block, a [1, 256] row, is row s of the stacked bias array. -/
theorem blk_bs (c : Dev nD) (t : Fin cfg0.N) (s : Fin 9) (q : Fin 256) :
    iblk m c 4 t (ix3 s (0 : Fin 1) q) = rd2 (m ((c : Thread nD τ).loc main_arg4)) s q := by
  obtain ⟨-, -, -, -, -, -, -, -, -, -, -, f0, f1, f2, -⟩ := idx_facts t
  have he : ((cfg0.win 4).blk t).view.emb (ix3 s (0 : Fin 1) q) = ix3 s (0 : Fin 1) q := by
    funext a; apply Fin.ext
    match a with
    | ⟨0, _⟩ => show win0_4.index t (0 : Fin 3) * 9 + 1 * s.val = s.val; rw [f0]; omega
    | ⟨1, _⟩ => show win0_4.index t (1 : Fin 3) * 1 + 1 * 0 = 0; rw [f1]
    | ⟨2, _⟩ => show win0_4.index t (2 : Fin 3) * 256 + 1 * q.val = q.val; rw [f2]; omega
  show V m c main_v4 (((cfg0.win 4).blk t).view.emb (ix3 s (0 : Fin 1) q)) = _
  rw [he, V_w4, shapeCast_ab_a1b_apply]

/-- The output layer's weight block is its weight array. -/
theorem blk_Wout (c : Dev nD) (t : Fin cfg0.N) (j : Fin 256) (q : Fin 3) :
    iblk m c 5 t (ix2 j q) = rd2 (m ((c : Thread nD τ).loc main_arg5)) j q := by
  obtain ⟨-, -, -, -, -, -, -, -, -, -, -, -, -, -, f0, f1, -⟩ := idx_facts t
  have he : ((cfg0.win 5).blk t).view.emb (ix2 j q) = ix2 j q := by
    funext a; apply Fin.ext
    match a with
    | ⟨0, _⟩ => show win0_5.index t (0 : Fin 2) * 256 + 1 * j.val = j.val; rw [f0]; omega
    | ⟨1, _⟩ => show win0_5.index t (1 : Fin 2) * 3 + 1 * q.val = q.val; rw [f1]; omega
  show V m c main_v2 (((cfg0.win 5).blk t).view.emb (ix2 j q)) = _
  rw [he, V_w5]
  rfl

/-- The output layer's bias row is its bias vector. -/
theorem blk_bout (c : Dev nD) (t : Fin cfg0.N) (q : Fin 3) :
    iblk m c 6 t (ix2 (0 : Fin 1) q) = rd1 (m ((c : Thread nD τ).loc main_arg6)) q := by
  obtain ⟨-, -, -, -, -, -, -, -, -, -, -, -, -, -, -, -, f0, f1⟩ := idx_facts t
  have he : ((cfg0.win 6).blk t).view.emb (ix2 (0 : Fin 1) q) = ix2 (0 : Fin 1) q := by
    funext a; apply Fin.ext
    match a with
    | ⟨0, _⟩ => show win0_6.index t (0 : Fin 2) * 1 + 1 * 0 = 0; rw [f0]
    | ⟨1, _⟩ => show win0_6.index t (1 : Fin 2) * 3 + 1 * q.val = q.val; rw [f1]; omega
  show V m c main_v5 (((cfg0.win 6).blk t).view.emb (ix2 (0 : Fin 1) q)) = _
  rw [he, V_w6, shapeCast_a_1a_apply]

/-! ## The body's loads -/

/-- A load of a whole rank-2 block (zero offsets, the block's own sizes) reads the block. -/
theorem ld_whole2 {Val : EltTy → Type} {e : EltTy} {a b : Nat} (X : (⟨2, ![a, b]⟩ : Shape).Idx → Val e)
    (inb : ∀ ax, (![0, 0] : Fin 2 → Nat) ax + (⟨2, ![a, b]⟩ : Shape).size ax ≤ (⟨2, ![a, b]⟩ : Shape).size ax)
    (i : Fin a) (j : Fin b) :
    View.ld X (Rect.unit (s := ⟨2, ![a, b]⟩) ![0, 0] (⟨2, ![a, b]⟩ : Shape).size inb) (ix2 i j) = X (ix2 i j) :=
  congrFun (View.ld_unit_zero (funext fun ax => by fin_cases ax <;> rfl) inb X) (ix2 i j)

/-- A load of slab o of a stacked rank-3 block reads, at (0, j, q), the block at (o, j, q). -/
theorem ld_slab {Val : EltTy → Type} {e : EltTy} {n a b : Nat} (X : (⟨3, ![n, a, b]⟩ : Shape).Idx → Val e) (o : Fin n)
    (inb : ∀ ax, (![o.val, 0, 0] : Fin 3 → Nat) ax + (![1, a, b] : Fin 3 → Nat) ax ≤ (⟨3, ![n, a, b]⟩ : Shape).size ax)
    (j : Fin a) (q : Fin b) :
    View.ld X (Rect.unit (s := ⟨3, ![n, a, b]⟩) ![o.val, 0, 0] ![1, a, b] inb) (ix3 (0 : Fin 1) j q) = X (ix3 o j q) := by
  show X ((Rect.unit (s := ⟨3, ![n, a, b]⟩) ![o.val, 0, 0] ![1, a, b] inb).idx (ix3 (0 : Fin 1) j q)) = X (ix3 o j q)
  refine congrArg X (funext fun ax => Fin.ext ?_)
  match ax with
  | ⟨0, _⟩ => show o.val + 1 * 0 = o.val; omega
  | ⟨1, _⟩ => show 0 + 1 * j.val = j.val; omega
  | ⟨2, _⟩ => show 0 + 1 * q.val = q.val; omega

/-! ## What a point writes back, the cover, the whole array -/

/-- WHAT POINT t WRITES BACK is block t of the tower applied to every row of the input. -/
theorem flushed_eq (c : Dev nD) (t : Fin cfg0.N) :
    (dats m 0 c).flushed 7 t
      = ((cfg0.win 7).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Cert.KernelIdeal.Value.flushed7]
  unfold out0_7
  funext y
  obtain ⟨p, q, rfl⟩ : ∃ (p : Fin 4096) (q : Fin 3), y = ix2 p q := ⟨y 0, y 1, eq_ix2 (n0 := 4096) (n1 := 3) y⟩
  refine (Cert.KernelIdeal.Value.canon7_eq _ _ _ _ _ _ _ _ _ _ _ _ _ _ _ _ _ _ _ _ _ _ _ (ix2 p q)).trans ?_
  refine (block_at (fun r => rd2 (m ((c : Thread nD τ).loc main_arg0)) (rowAt t r)) (rd2 (m ((c : Thread nD τ).loc main_arg1))) (rd1 (m ((c : Thread nD τ).loc main_arg2)))
    (rd3 (m ((c : Thread nD τ).loc main_arg3))) (rd2 (m ((c : Thread nD τ).loc main_arg4))) (rd2 (m ((c : Thread nD τ).loc main_arg5))) (rd1 (m ((c : Thread nD τ).loc main_arg6)))
    _ _ _ _ _ _ _ _ _ _ _ _ _ _ _ _ _ _ _ _ _ _ _
    (fun r j => (ld_whole2 (iblk m c 0 t) _ r j).trans (blk_x m c t r j))
    (fun j q => (ld_whole2 (iblk m c 1 t) _ j q).trans (blk_W0 m c t j q))
    (fun q => (ld_whole2 (iblk m c 2 t) _ 0 q).trans (blk_b0 m c t q))
    (fun j q => (ld_slab (iblk m c 3 t) 0 _ j q).trans (blk_Ws m c t 0 j q))
    (fun q => (ld_slab (iblk m c 4 t) 0 _ 0 q).trans (blk_bs m c t 0 q))
    (fun j q => (ld_slab (iblk m c 3 t) 1 _ j q).trans (blk_Ws m c t 1 j q))
    (fun q => (ld_slab (iblk m c 4 t) 1 _ 0 q).trans (blk_bs m c t 1 q))
    (fun j q => (ld_slab (iblk m c 3 t) 2 _ j q).trans (blk_Ws m c t 2 j q))
    (fun q => (ld_slab (iblk m c 4 t) 2 _ 0 q).trans (blk_bs m c t 2 q))
    (fun j q => (ld_slab (iblk m c 3 t) 3 _ j q).trans (blk_Ws m c t 3 j q))
    (fun q => (ld_slab (iblk m c 4 t) 3 _ 0 q).trans (blk_bs m c t 3 q))
    (fun j q => (ld_slab (iblk m c 3 t) 4 _ j q).trans (blk_Ws m c t 4 j q))
    (fun q => (ld_slab (iblk m c 4 t) 4 _ 0 q).trans (blk_bs m c t 4 q))
    (fun j q => (ld_slab (iblk m c 3 t) 5 _ j q).trans (blk_Ws m c t 5 j q))
    (fun q => (ld_slab (iblk m c 4 t) 5 _ 0 q).trans (blk_bs m c t 5 q))
    (fun j q => (ld_slab (iblk m c 3 t) 6 _ j q).trans (blk_Ws m c t 6 j q))
    (fun q => (ld_slab (iblk m c 4 t) 6 _ 0 q).trans (blk_bs m c t 6 q))
    (fun j q => (ld_slab (iblk m c 3 t) 7 _ j q).trans (blk_Ws m c t 7 j q))
    (fun q => (ld_slab (iblk m c 4 t) 7 _ 0 q).trans (blk_bs m c t 7 q))
    (fun j q => (ld_slab (iblk m c 3 t) 8 _ j q).trans (blk_Ws m c t 8 j q))
    (fun q => (ld_slab (iblk m c 4 t) 8 _ 0 q).trans (blk_bs m c t 8 q))
    (fun j q => (ld_whole2 (iblk m c 5 t) _ j q).trans (blk_Wout m c t j q))
    (fun q => (ld_whole2 (iblk m c 6 t) _ 0 q).trans (blk_bout m c t q))
    p q).trans ?_
  have he : ((cfg0.win 7).blk t).view.emb (ix2 p q) = ix2 (rowAt t p) q := by
    funext a; apply Fin.ext
    match a with
    | ⟨0, _⟩ => show win0_7.index t (0 : Fin 2) * 4096 + 1 * p.val = win0_7.index t (0 : Fin 2) * 4096 + p.val; omega
    | ⟨1, _⟩ => show win0_7.index t (1 : Fin 2) * 3 + 1 * q.val = q.val; rw [(idx_facts t).2.2.1]; omega
  show _ = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb (ix2 p q))
  rw [he, G_at]

/-- An index of the result array is in point t's block iff each coordinate is in the block's range on its axis. -/
theorem mem_blk (t : Fin cfg0.N) (i : S131072x3.Idx) :
    i ∈ ((cfg0.win 7).blk t).view.set ↔ ∀ a : Fin 2, win0_7.index t a * S4096x3.size a ≤ (i a).val
      ∧ (i a).val < win0_7.index t a * S4096x3.size a + S4096x3.size a := by
  show i ∈ ((View.whole main_v6).slice (win0_7.rect t)).set ↔ _
  rw [View.set_slice_whole, Rect.mem_set_unit]
  exact Iff.rfl

/-- Every entry of the result array is in some point's block: row R is in the block of the point numbered R / 4096. -/
theorem cover (i : S131072x3.Idx) :
    ∃ t : Fin cfg0.N, (cfg0.win 7).flush t = true ∧ i ∈ ((cfg0.win 7).blk t).view.set := by
  have hi0 : (i 0).val < 131072 := (i 0).isLt
  have hi1 : (i 1).val < 3 := (i 1).isLt
  obtain ⟨t, ht⟩ := idx_onto ⟨(i 0).val / 4096, by omega⟩
  have q0 : win0_7.index t (0 : Fin 2) = (i 0).val / 4096 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 4096 ≤ (i 0).val ∧ (i 0).val < win0_7.index t (0 : Fin 2) * 4096 + 4096; omega
  | ⟨1, _⟩ => show win0_7.index t (1 : Fin 2) * 3 ≤ (i 1).val ∧ (i 1).val < win0_7.index t (1 : Fin 2) * 3 + 3; omega

/-- THE RESULT ARRAY after the run is the tower applied to every row of the input. -/
theorem final (c : Dev nD) : (dats m 0 c).arrAt 7 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_eq m c t) cover

/-- The kernel's run, its result array named by the tower and its arguments unchanged. -/
theorem run : θ_run defs (onTc (τ := τ) (main (F := Ideal))) ⟨m, fun _ => 0, ρ⟩ fun r => ∀ c : Dev nD,
      r.2.mem ((c : Thread nD τ).loc main_v6) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.Tower.Kernel

end
-- ==== Proof.RefTower.lean ====
/-
  THE REFERENCE COMPUTES THE TOWER.

  The reference program applies, to the whole array of 131072 rows at once, eleven times the same three steps: a
  matrix product with a weight matrix (for the nine inner layers, one slab cut out of the stacked weights and re-laid
  as a matrix), the addition of a bias vector repeated down the rows (one row cut out of the stacked biases), and an
  entrywise function. Reading each stage at the entry (r, k), stage after stage, gives hidden row after hidden row
  of the tower at row r of the input; the last stage, the logistic written out as 1 / (1 + exp(−z)), gives the
  tower's output. Each layer's reading uses the previous layer's reading for the left operand of its product.
-/
import proofs.«166873_j14568529068326_1_alg».proof.Proof.Gen.ReferenceIdeal.Read
import proofs.«166873_j14568529068326_1_alg».proof.Proof.Layers

noncomputable section

namespace Cert.Tower.Ref

open Idealize.ShloMosaic Idealize.ShloMosaic.ValueIdx Cert.ReferenceIdeal Cert.ReferenceIdeal.Read Cert.Tower

/-- The reference's three product records are plain products. -/
theorem plain_in : Plain dot_S131072x12_S12x256_S131072x256_1_0_0_1_n_n := ⟨rfl, rfl, rfl, rfl, rfl, rfl⟩
theorem plain_hid : Plain dot_S131072x256_S256x256_S131072x256_1_0_0_1_n_n := ⟨rfl, rfl, rfl, rfl, rfl, rfl⟩
theorem plain_out : Plain dot_S131072x256_S256x3_S131072x3_1_0_0_1_n_n := ⟨rfl, rfl, rfl, rfl, rfl, rfl⟩

variable (x0 : (⟨S131072x12, .f32⟩ : BufTy).Contents (Elt Ideal)) (x1 : (⟨S12x256, .f32⟩ : BufTy).Contents (Elt Ideal)) (x2 : (⟨S256, .f32⟩ : BufTy).Contents (Elt Ideal))
  (x3 : (⟨S9x256x256, .f32⟩ : BufTy).Contents (Elt Ideal)) (x4 : (⟨S9x256, .f32⟩ : BufTy).Contents (Elt Ideal)) (x5 : (⟨S256x3, .f32⟩ : BufTy).Contents (Elt Ideal)) (x6 : (⟨S3, .f32⟩ : BufTy).Contents (Elt Ideal))

/-- Layer 0 (sine): the stage after the first activation, at (r, k), is hidden row 0 of the tower at input row r. -/
theorem stage_h0 (r : Fin 131072) (k : Fin 256) :
    val_main_v4 (F := Ideal) x0 x1 x2 (ix2 r k) = h0 (rd2 x0 r) (rd2 x1) (rd1 x2) k := by
  unfold val_main_v4 val_main_v3 val_main_v2 val_main_v1 val_main_v0
  exact host_layer_at _ plain_in (rd2 x0) (rd2 x1) (rd1 x2) Ideal.sin Host.sin host_sin_at x0 x1 _
    (fun _ _ => rfl) (fun _ _ => rfl) (fun r q => host_vec_bias_at x2 _ _ (rd1 x2) (fun _ => rfl) r q) r k

/-- Layer 1 (cosine), from layer 0's reading; its weights are slab 0, its bias row 0. -/
theorem stage_h1 (r : Fin 131072) (k : Fin 256) :
    val_main_v13 (F := Ideal) x0 x1 x2 x3 x4 (ix2 r k) = h1 (rd2 x0 r) (rd2 x1) (rd1 x2) (rd3 x3) (rd2 x4) k := by
  unfold val_main_v13 val_main_v12 val_main_v11 val_main_v10 val_main_v9 val_main_v8 val_main_v7 val_main_v6 val_main_v5
  exact host_layer_at _ plain_hid (fun r => h0 (rd2 x0 r) (rd2 x1) (rd1 x2)) (rd3 x3 0) (rd2 x4 0)
    Ideal.cos Host.cos host_cos_at (val_main_v4 (F := Ideal) x0 x1 x2) _ _ (stage_h0 x0 x1 x2)
    (fun k q => host_slab_weight_at x3 0 (by decide) _ _ (rd3 x3 0) (fun _ _ => rfl) k q)
    (fun r q => host_row_bias_at x4 0 (by decide) _ _ _ _ (rd2 x4 0) (fun _ => rfl) r q) r k

/-- Layer 2 (gaussian), from layer 1's reading; its weights are slab 1, its bias row 1. -/
theorem stage_h2 (r : Fin 131072) (k : Fin 256) :
    val_main_v24 (F := Ideal) x0 x1 x2 x3 x4 (ix2 r k) = h2 (rd2 x0 r) (rd2 x1) (rd1 x2) (rd3 x3) (rd2 x4) k := by
  unfold val_main_v24 val_main_v23 val_main_v22 val_main_v21 val_main_v20 val_main_v19 val_main_v18 val_main_v17 val_main_v16 val_main_v15 val_main_v14
  exact host_layer_at _ plain_hid (fun r => h1 (rd2 x0 r) (rd2 x1) (rd1 x2) (rd3 x3) (rd2 x4)) (rd3 x3 1) (rd2 x4 1)
    gauss (fun Z => Host.exp (mulf (Host.negf Z) Z)) host_gauss_at (val_main_v13 (F := Ideal) x0 x1 x2 x3 x4) _ _ (stage_h1 x0 x1 x2 x3 x4)
    (fun k q => host_slab_weight_at x3 1 (by decide) _ _ (rd3 x3 1) (fun _ _ => rfl) k q)
    (fun r q => host_row_bias_at x4 1 (by decide) _ _ _ _ (rd2 x4 1) (fun _ => rfl) r q) r k

/-- Layer 3 (hyperbolic tangent), from layer 2's reading; its weights are slab 2, its bias row 2. -/
theorem stage_h3 (r : Fin 131072) (k : Fin 256) :
    val_main_v33 (F := Ideal) x0 x1 x2 x3 x4 (ix2 r k) = h3 (rd2 x0 r) (rd2 x1) (rd1 x2) (rd3 x3) (rd2 x4) k := by
  unfold val_main_v33 val_main_v32 val_main_v31 val_main_v30 val_main_v29 val_main_v28 val_main_v27 val_main_v26 val_main_v25
  exact host_layer_at _ plain_hid (fun r => h2 (rd2 x0 r) (rd2 x1) (rd1 x2) (rd3 x3) (rd2 x4)) (rd3 x3 2) (rd2 x4 2)
    Ideal.tanh Host.tanh host_tanh_at (val_main_v24 (F := Ideal) x0 x1 x2 x3 x4) _ _ (stage_h2 x0 x1 x2 x3 x4)
    (fun k q => host_slab_weight_at x3 2 (by decide) _ _ (rd3 x3 2) (fun _ _ => rfl) k q)
    (fun r q => host_row_bias_at x4 2 (by decide) _ _ _ _ (rd2 x4 2) (fun _ => rfl) r q) r k

/-- Layer 4 (sine), from layer 3's reading; its weights are slab 3, its bias row 3. -/
theorem stage_h4 (r : Fin 131072) (k : Fin 256) :
    val_main_v42 (F := Ideal) x0 x1 x2 x3 x4 (ix2 r k) = h4 (rd2 x0 r) (rd2 x1) (rd1 x2) (rd3 x3) (rd2 x4) k := by
  unfold val_main_v42 val_main_v41 val_main_v40 val_main_v39 val_main_v38 val_main_v37 val_main_v36 val_main_v35 val_main_v34
  exact host_layer_at _ plain_hid (fun r => h3 (rd2 x0 r) (rd2 x1) (rd1 x2) (rd3 x3) (rd2 x4)) (rd3 x3 3) (rd2 x4 3)
    Ideal.sin Host.sin host_sin_at (val_main_v33 (F := Ideal) x0 x1 x2 x3 x4) _ _ (stage_h3 x0 x1 x2 x3 x4)
    (fun k q => host_slab_weight_at x3 3 (by decide) _ _ (rd3 x3 3) (fun _ _ => rfl) k q)
    (fun r q => host_row_bias_at x4 3 (by decide) _ _ _ _ (rd2 x4 3) (fun _ => rfl) r q) r k

/-- Layer 5 (cosine), from layer 4's reading; its weights are slab 4, its bias row 4. -/
theorem stage_h5 (r : Fin 131072) (k : Fin 256) :
    val_main_v51 (F := Ideal) x0 x1 x2 x3 x4 (ix2 r k) = h5 (rd2 x0 r) (rd2 x1) (rd1 x2) (rd3 x3) (rd2 x4) k := by
  unfold val_main_v51 val_main_v50 val_main_v49 val_main_v48 val_main_v47 val_main_v46 val_main_v45 val_main_v44 val_main_v43
  exact host_layer_at _ plain_hid (fun r => h4 (rd2 x0 r) (rd2 x1) (rd1 x2) (rd3 x3) (rd2 x4)) (rd3 x3 4) (rd2 x4 4)
    Ideal.cos Host.cos host_cos_at (val_main_v42 (F := Ideal) x0 x1 x2 x3 x4) _ _ (stage_h4 x0 x1 x2 x3 x4)
    (fun k q => host_slab_weight_at x3 4 (by decide) _ _ (rd3 x3 4) (fun _ _ => rfl) k q)
    (fun r q => host_row_bias_at x4 4 (by decide) _ _ _ _ (rd2 x4 4) (fun _ => rfl) r q) r k

/-- Layer 6 (gaussian), from layer 5's reading; its weights are slab 5, its bias row 5. -/
theorem stage_h6 (r : Fin 131072) (k : Fin 256) :
    val_main_v62 (F := Ideal) x0 x1 x2 x3 x4 (ix2 r k) = h6 (rd2 x0 r) (rd2 x1) (rd1 x2) (rd3 x3) (rd2 x4) k := by
  unfold val_main_v62 val_main_v61 val_main_v60 val_main_v59 val_main_v58 val_main_v57 val_main_v56 val_main_v55 val_main_v54 val_main_v53 val_main_v52
  exact host_layer_at _ plain_hid (fun r => h5 (rd2 x0 r) (rd2 x1) (rd1 x2) (rd3 x3) (rd2 x4)) (rd3 x3 5) (rd2 x4 5)
    gauss (fun Z => Host.exp (mulf (Host.negf Z) Z)) host_gauss_at (val_main_v51 (F := Ideal) x0 x1 x2 x3 x4) _ _ (stage_h5 x0 x1 x2 x3 x4)
    (fun k q => host_slab_weight_at x3 5 (by decide) _ _ (rd3 x3 5) (fun _ _ => rfl) k q)
    (fun r q => host_row_bias_at x4 5 (by decide) _ _ _ _ (rd2 x4 5) (fun _ => rfl) r q) r k

/-- Layer 7 (hyperbolic tangent), from layer 6's reading; its weights are slab 6, its bias row 6. -/
theorem stage_h7 (r : Fin 131072) (k : Fin 256) :
    val_main_v71 (F := Ideal) x0 x1 x2 x3 x4 (ix2 r k) = h7 (rd2 x0 r) (rd2 x1) (rd1 x2) (rd3 x3) (rd2 x4) k := by
  unfold val_main_v71 val_main_v70 val_main_v69 val_main_v68 val_main_v67 val_main_v66 val_main_v65 val_main_v64 val_main_v63
  exact host_layer_at _ plain_hid (fun r => h6 (rd2 x0 r) (rd2 x1) (rd1 x2) (rd3 x3) (rd2 x4)) (rd3 x3 6) (rd2 x4 6)
    Ideal.tanh Host.tanh host_tanh_at (val_main_v62 (F := Ideal) x0 x1 x2 x3 x4) _ _ (stage_h6 x0 x1 x2 x3 x4)
    (fun k q => host_slab_weight_at x3 6 (by decide) _ _ (rd3 x3 6) (fun _ _ => rfl) k q)
    (fun r q => host_row_bias_at x4 6 (by decide) _ _ _ _ (rd2 x4 6) (fun _ => rfl) r q) r k

/-- Layer 8 (sine), from layer 7's reading; its weights are slab 7, its bias row 7. -/
theorem stage_h8 (r : Fin 131072) (k : Fin 256) :
    val_main_v80 (F := Ideal) x0 x1 x2 x3 x4 (ix2 r k) = h8 (rd2 x0 r) (rd2 x1) (rd1 x2) (rd3 x3) (rd2 x4) k := by
  unfold val_main_v80 val_main_v79 val_main_v78 val_main_v77 val_main_v76 val_main_v75 val_main_v74 val_main_v73 val_main_v72
  exact host_layer_at _ plain_hid (fun r => h7 (rd2 x0 r) (rd2 x1) (rd1 x2) (rd3 x3) (rd2 x4)) (rd3 x3 7) (rd2 x4 7)
    Ideal.sin Host.sin host_sin_at (val_main_v71 (F := Ideal) x0 x1 x2 x3 x4) _ _ (stage_h7 x0 x1 x2 x3 x4)
    (fun k q => host_slab_weight_at x3 7 (by decide) _ _ (rd3 x3 7) (fun _ _ => rfl) k q)
    (fun r q => host_row_bias_at x4 7 (by decide) _ _ _ _ (rd2 x4 7) (fun _ => rfl) r q) r k

/-- Layer 9 (cosine), from layer 8's reading; its weights are slab 8, its bias row 8. -/
theorem stage_h9 (r : Fin 131072) (k : Fin 256) :
    val_main_v89 (F := Ideal) x0 x1 x2 x3 x4 (ix2 r k) = h9 (rd2 x0 r) (rd2 x1) (rd1 x2) (rd3 x3) (rd2 x4) k := by
  unfold val_main_v89 val_main_v88 val_main_v87 val_main_v86 val_main_v85 val_main_v84 val_main_v83 val_main_v82 val_main_v81
  exact host_layer_at _ plain_hid (fun r => h8 (rd2 x0 r) (rd2 x1) (rd1 x2) (rd3 x3) (rd2 x4)) (rd3 x3 8) (rd2 x4 8)
    Ideal.cos Host.cos host_cos_at (val_main_v80 (F := Ideal) x0 x1 x2 x3 x4) _ _ (stage_h8 x0 x1 x2 x3 x4)
    (fun k q => host_slab_weight_at x3 8 (by decide) _ _ (rd3 x3 8) (fun _ _ => rfl) k q)
    (fun r q => host_row_bias_at x4 8 (by decide) _ _ _ _ (rd2 x4 8) (fun _ => rfl) r q) r k

/-- The output layer (logistic, written out by the reference as 1 / (1 + exp(−z))), from layer 9's reading. -/
theorem stage_out (r : Fin 131072) (c : Fin 3) :
    val_main_v99 (F := Ideal) x0 x1 x2 x3 x4 x5 x6 (ix2 r c)
      = out (rd2 x0 r) (rd2 x1) (rd1 x2) (rd3 x3) (rd2 x4) (rd2 x5) (rd1 x6) c := by
  unfold val_main_v99 val_main_v98 val_main_v97 val_main_v96 val_main_v95 val_main_v94 val_main_v93 val_main_v92
    val_main_v91 val_main_v90
  refine (host_logistic_at _ _ _).trans (congrArg Ideal.logistic ?_)
  exact host_dense_at _ plain_out (fun r => h9 (rd2 x0 r) (rd2 x1) (rd1 x2) (rd3 x3) (rd2 x4)) (rd2 x5) (rd1 x6)
    (val_main_v89 (F := Ideal) x0 x1 x2 x3 x4) x5 _ (stage_h9 x0 x1 x2 x3 x4) (fun _ _ => rfl)
    (fun r q => host_vec_bias_at x6 _ _ (rd1 x6) (fun _ => rfl) r q) r c

/-- THE REFERENCE'S RESULT ARRAY is the tower applied to every row of the input. -/
theorem result_eq_G : val_main_v99 (F := Ideal) x0 x1 x2 x3 x4 x5 x6 = G x0 x1 x2 x3 x4 x5 x6 := by
  funext i
  obtain ⟨r, c, rfl⟩ : ∃ (r : Fin 131072) (c : Fin 3), i = ix2 r c := ⟨i 0, i 1, eq_ix2 i⟩
  rw [stage_out, G_at]

end Cert.Tower.Ref

end
-- ==== Proof.lean ====
/-
  A dense tower — twelve inputs, ten hidden layers of width 256 with activations sine, cosine, gaussian and hyperbolic
  tangent in turn, three logistic outputs — applied to each of 131072 rows, computed two ways: by a kernel that takes
  the rows 4096 at a time with all parameters resident, and by a reference that takes the whole array through one
  operation after another. Over the extended reals both end with the same array, `Cert.Tower.G` of the seven argument
  arrays: a row's outputs depend on that row alone, each layer is the same sum of products plus a bias in both
  programs, a change of float format is the identity, 0 − z is −z, and the logistic is by definition
  1 / (1 + exp(−z)). No step uses that the inputs are finite: every law used is an identity on all extended reals.

  The three programs' frames are the generated ones (the reference's is its run with the result dropped); the
  idealization rewrote nothing, so that conjunct is trivial; the value claim sets the kernel's run (its result array
  read block by block, Proof/KernelArray.lean) beside the reference's run (its result read stage by stage,
  Proof/RefTower.lean), both stated with the one function `G` (Proof/Spec.lean).
-/
import proofs.«166873_j14568529068326_1_alg».proof.Defs
import proofs.«166873_j14568529068326_1_alg».proof.Proof.Gen.Kernel
import proofs.«166873_j14568529068326_1_alg».proof.Proof.Gen.Kernel.Skeleton
import proofs.«166873_j14568529068326_1_alg».proof.Proof.Gen.Kernel.Launch
import proofs.«166873_j14568529068326_1_alg».proof.Proof.Gen.Kernel.Points
import proofs.«166873_j14568529068326_1_alg».proof.Proof.Gen.Kernel.Frame
import proofs.«166873_j14568529068326_1_alg».proof.Proof.Gen.KernelIdeal
import proofs.«166873_j14568529068326_1_alg».proof.Proof.Gen.KernelIdeal.Skeleton
import proofs.«166873_j14568529068326_1_alg».proof.Proof.Gen.KernelIdeal.Launch
import proofs.«166873_j14568529068326_1_alg».proof.Proof.Gen.KernelIdeal.Points
import proofs.«166873_j14568529068326_1_alg».proof.Proof.Gen.KernelIdeal.Frame
import proofs.«166873_j14568529068326_1_alg».proof.Proof.Gen.ReferenceIdeal
import proofs.«166873_j14568529068326_1_alg».proof.Proof.Gen.Pre_finite_inputs
import proofs.«166873_j14568529068326_1_alg».proof.Proof.Gen.KernelIdeal.Value
import proofs.«166873_j14568529068326_1_alg».proof.Proof.Gen.ReferenceIdeal.Run
import proofs.«166873_j14568529068326_1_alg».proof.Proof.Gen.ReferenceIdeal.Read
import proofs.«166873_j14568529068326_1_alg».proof.Proof.KernelArray
import proofs.«166873_j14568529068326_1_alg».proof.Proof.RefTower
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the seven arguments, the idealized kernel and the idealized reference both end with
    the tower applied to every row of the input. -/
theorem algebraic : Cert.algebraic_KernelIdeal_ReferenceIdeal := by
  intro m ρ m' ρ' _ hagree
  refine ⟨_, Cert.Tower.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v99_eq, Cert.Tower.Ref.result_eq_G, (hagree c).1, (hagree c).2.1,
    (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
